-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_arg5 : FVec F S32x16 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x16 .f32) (main_arg3 : FVec F S128x32 .f32) (main_arg4 : FVec F S32x16 .f32) (main_arg5 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S400x16 : Shape := ⟨2, ![400, 16]⟩

abbrev nBuf : Space → Nat
  | .hbm => 11
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S32x32, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S32x32, .f32⟩
  | .local _ .vmem, ⟨7, _⟩ => ⟨S400x32, .f32⟩
  | .local _ .vmem, ⟨8, _⟩ => ⟨S400x32, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S400x16, .f32⟩
  | .local _ .vmem, ⟨17, _⟩ => ⟨S400x16, .f32⟩
  | .local _ .vmem, ⟨18, _⟩ => ⟨S10000x16, .f32⟩
  | .local _ .vmem, ⟨19, _⟩ => ⟨S400x10000, .f32⟩
  | .local _ .vmem, ⟨20, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  slices_S400x32_o0_0_S400x16 : S400x32.Slices ![0, 0] S400x16
  slices_S400x32_o0_16_S400x16 : S400x32.Slices ![0, 16] S400x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x16_S10000x16_S400x10000_1_1_0_0_n_n_wf : DotDims.WF S400x16 S10000x16 S400x10000 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S16x10000 : Shape := ⟨2, ![16, 10000]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S10000x32, .f32⟩
  | .hbm, ⟨7, _⟩ => ⟨S10000x32, .f32⟩
  | .hbm, ⟨8, _⟩ => ⟨S_, .f32⟩
  | .hbm, ⟨9, _⟩ => ⟨S10000x32, .f32⟩
  | .hbm, ⟨10, _⟩ => ⟨S10000x32, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x16_S16x10000_1_0 : S10000x16.Transposes [1, 0] S16x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.Dat0.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main (`cc0__s1_kernel`, pipeline 0) at the contents `V` its buffers hold when it is entered:
    the windows' blocks, what the body leaves in the output window's staging buffer, and the pipeline's proof data -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle through which the body loads input window 0's staging buffer. -/
abbrev r0_0 : Rect S10000x128 := Rect.unit (s := S10000x128) ![0, 0] S10000x128.size inb_S10000x128_S10000x128_0_0
/-- The whole-buffer rectangle through which the body loads input window 1's staging buffer. -/
abbrev r0_1 : Rect S128x32 := Rect.unit (s := S128x32) ![0, 0] S128x32.size inb_S128x32_S128x32_0_0
/-- The whole-buffer rectangle through which the body stores into the output window's staging buffer. -/
abbrev r0_2 : Rect S10000x32 := Rect.unit (s := S10000x32) ![0, 0] S10000x32.size inb_S10000x32_S10000x32_0_0

/-- The output window's staging buffer after the body, as a function of the input windows' staging buffers: its one
    store, of the body's arithmetic on the loaded blocks, covering the whole buffer. -/
def out0_2 (x0 : Vec F S10000x128 .f32) (x1 : Vec F S128x32 .f32) : Vec F S10000x32 .f32 :=
  View.canon [⟨r0_2, k0_pay1 (View.ld x0 r0_0) (View.ld x1 r0_1)⟩]

/-- The proof data of pipeline 0 on core `c`: the arrays as the region finds them; after the body at point `t` each
    input's staging buffer still at its block and the output's at `out0_2` of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.Kernel.Hand

end
-- ==== Proof.K.Body0.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import proofs.«157436_g28449863369143_cont_9to1_491_9_alg».proof.Proof.K.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main (`cc0__s1_kernel`): the body's run on whole staging buffers, and the pipeline's body obligation -/

/-- Input window 0's current staging buffer holds its block at every point, fetched there or not (where it is not
    fetched its block index has not moved), for any proof data whose array is the region-entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not (where it is not
    fetched its block index has not moved), for any proof data whose array is the region-entry contents and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- The body's one store covers the output window's staging buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

set_option maxHeartbeats 1000000 in
/-- The kernel body on whole staging memrefs — the inputs' at contents `x·`, the output's at anything — runs to its
    continuation with the inputs' as they were and the output's at `out0_2` of the inputs: every load is of a whole
    buffer, the value loaded from the output's buffer is not used, and the one store covers it. -/
theorem sound_kernel0 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__s1_kernel arg0 harg0 arg1 harg1 arg2 harg2) K := by
  simp only [cc0__s1_kernel_eq_skeleton]; unfold cc0__s1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`: the invariant, the core's dues, each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Dat1.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of @main (`cc1__pass_a_kernel`, pipeline 1) at the contents `V` its buffers hold when it is entered:
    the windows' blocks, what the body leaves in the output window's staging buffer, and the pipeline's proof data -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangle through which the body loads input window 0's staging buffer. -/
abbrev r1_0 : Rect S400x10000 := Rect.unit (s := S400x10000) ![0, 0] S400x10000.size inb_S400x10000_S400x10000_0_0
/-- The whole-buffer rectangle through which the body loads input window 1's staging buffer. -/
abbrev r1_1 : Rect S10000x32 := Rect.unit (s := S10000x32) ![0, 0] S10000x32.size inb_S10000x32_S10000x32_0_0
/-- The whole-buffer rectangle through which the body loads input window 2's staging buffer. -/
abbrev r1_2 : Rect S32x32 := Rect.unit (s := S32x32) ![0, 0] S32x32.size inb_S32x32_S32x32_0_0
/-- The whole-buffer rectangle through which the body stores into the output window's staging buffer. -/
abbrev r1_3 : Rect S400x32 := Rect.unit (s := S400x32) ![0, 0] S400x32.size inb_S400x32_S400x32_0_0

/-- The output window's staging buffer after the body, as a function of the input windows' staging buffers: its one
    store, of the body's arithmetic on the loaded blocks, covering the whole buffer. -/
def out1_3 (x0 : Vec F S400x10000 .f32) (x1 : Vec F S10000x32 .f32) (x2 : Vec F S32x32 .f32) : Vec F S400x32 .f32 :=
  View.canon [⟨r1_3, k1_pay1 (View.ld x0 r1_0) (View.ld x1 r1_1) (View.ld x2 r1_2)⟩]

/-- The proof data of pipeline 1 on core `c`: the arrays as the region finds them; after the body at point `t` each
    input's staging buffer still at its block and the output's at `out1_3` of the input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.Kernel.Hand

end
-- ==== Proof.K.Body1.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import proofs.«157436_g28449863369143_cont_9to1_491_9_alg».proof.Proof.K.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of @main (`cc1__pass_a_kernel`): the body's run on whole staging buffers, and the pipeline's body obligation -/

/-- Input window 0's current staging buffer holds its block at every point, fetched there or not (where it is not
    fetched its block index has not moved), for any proof data whose array is the region-entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not (where it is not
    fetched its block index has not moved), for any proof data whose array is the region-entry contents and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not (where it is not
    fetched its block index has not moved), for any proof data whose array is the region-entry contents and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- The body's one store covers the output window's staging buffer. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y

set_option maxHeartbeats 1000000 in
/-- The kernel body on whole staging memrefs — the inputs' at contents `x·`, the output's at anything — runs to its
    continuation with the inputs' as they were and the output's at `out1_3` of the inputs: every load is of a whole
    buffer, the value loaded from the output's buffer is not used, and the one store covers it. -/
theorem sound_kernel1 (c : Dev nD) (E : Set ℕ) (i : grid1.Coords) (arg1 : Memref sig .tc .vmem S400x10000 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass_a_kernel i arg1 harg1 arg2 harg2 arg3 harg3 arg4 harg4) K := by
  simp only [cc1__pass_a_kernel_eq_skeleton]; unfold cc1__pass_a_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, the core's dues, each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Dat2.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of @main (`cc2__pass_b_kernel`, pipeline 2) at the contents `V` its buffers hold when it is entered:
    the windows' blocks, what the body leaves in the output window's staging buffer, and the pipeline's proof data -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangle through which the body loads input window 0's staging buffer. -/
abbrev r2_0 : Rect S400x10000 := Rect.unit (s := S400x10000) ![0, 0] S400x10000.size inb_S400x10000_S400x10000_0_0
/-- The whole-buffer rectangle through which the body loads input window 1's staging buffer. -/
abbrev r2_1 : Rect S10000x32 := Rect.unit (s := S10000x32) ![0, 0] S10000x32.size inb_S10000x32_S10000x32_0_0
/-- The whole-buffer rectangle through which the body loads input window 2's staging buffer. -/
abbrev r2_2 : Rect S400x16 := Rect.unit (s := S400x16) ![0, 0] S400x16.size inb_S400x16_S400x16_0_0
/-- The whole-buffer rectangle through which the body stores into the output window's staging buffer. -/
abbrev r2_3 : Rect S400x16 := Rect.unit (s := S400x16) ![0, 0] S400x16.size inb_S400x16_S400x16_0_0

/-- The output window's staging buffer after the body, as a function of the input windows' staging buffers: its one
    store, of the body's arithmetic on the loaded blocks, covering the whole buffer. -/
def out2_3 (x0 : Vec F S400x10000 .f32) (x1 : Vec F S10000x32 .f32) (x2 : Vec F S400x16 .f32) : Vec F S400x16 .f32 :=
  View.canon [⟨r2_3, k2_pay1 (View.ld x0 r2_0) (View.ld x1 r2_1) (View.ld x2 r2_2)⟩]

/-- The proof data of pipeline 2 on core `c`: the arrays as the region finds them; after the body at point `t` each
    input's staging buffer still at its block and the output's at `out2_3` of the input blocks; the invariant is the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Cert.Kernel.Hand

end
-- ==== Proof.K.Body2.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import proofs.«157436_g28449863369143_cont_9to1_491_9_alg».proof.Proof.K.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of @main (`cc2__pass_b_kernel`): the body's run on whole staging buffers, and the pipeline's body obligation -/

/-- Input window 0's current staging buffer holds its block at every point, fetched there or not (where it is not
    fetched its block index has not moved), for any proof data whose array is the region-entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, fetched there or not (where it is not
    fetched its block index has not moved), for any proof data whose array is the region-entry contents and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, fetched there or not (where it is not
    fetched its block index has not moved), for any proof data whose array is the region-entry contents and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- The body's one store covers the output window's staging buffer. -/
theorem cover2_3 (p0 : Vec F S400x16 .f32) (y : S400x16.Idx) :
    ∃ pc ∈ ([⟨r2_3, p0⟩] : List (View.Piece (Elt F) S400x16 .f32)), y ∈ pc.1.set :=
  View.cover_of_tiled [⟨r2_3, p0⟩] S400x16.size (by rfl) y

set_option maxHeartbeats 1000000 in
/-- The kernel body on whole staging memrefs — the inputs' at contents `x·`, the output's at anything — runs to its
    continuation with the inputs' as they were and the output's at `out2_3` of the inputs: every load is of a whole
    buffer, the value loaded from the output's buffer is not used, and the one store covers it. -/
theorem sound_kernel2 (c : Dev nD) (E : Set ℕ) (i : grid2.Coords) (arg1 : Memref sig .tc .vmem S400x10000 .f32) (harg1 : arg1.IsWhole) (arg2 : Memref sig .tc .vmem S10000x32 .f32) (harg2 : arg2.IsWhole) (arg3 : Memref sig .tc .vmem S400x16 .f32) (harg3 : arg3.IsWhole) (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__pass_b_kernel i arg1 harg1 arg2 harg2 arg3 harg3 arg4 harg4) K := by
  simp only [cc2__pass_b_kernel_eq_skeleton]; unfold cc2__pass_b_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`: the invariant, the core's dues, each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Dat3.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 of @main (`cc3__decode_kernel`, pipeline 3) at the contents `V` its buffers hold when it is entered:
    the windows' blocks, what the body leaves in the output window's staging buffer, and the pipeline's proof data -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangle through which the body loads input window 0's staging buffer. -/
abbrev r3_0 : Rect S400x16 := Rect.unit (s := S400x16) ![0, 0] S400x16.size inb_S400x16_S400x16_0_0
/-- The whole-buffer rectangle through which the body loads input window 1's staging buffer. -/
abbrev r3_1 : Rect S10000x16 := Rect.unit (s := S10000x16) ![0, 0] S10000x16.size inb_S10000x16_S10000x16_0_0
/-- The whole-buffer rectangle through which the body stores into the output window's staging buffer. -/
abbrev r3_2 : Rect S400x10000 := Rect.unit (s := S400x10000) ![0, 0] S400x10000.size inb_S400x10000_S400x10000_0_0

/-- The output window's staging buffer after the body, as a function of the input windows' staging buffers: its one
    store, of the body's arithmetic on the loaded blocks, covering the whole buffer. -/
def out3_2 (x0 : Vec F S400x16 .f32) (x1 : Vec F S10000x16 .f32) : Vec F S400x10000 .f32 :=
  View.canon [⟨r3_2, k3_pay1 (View.ld x0 r3_0) (View.ld x1 r3_1)⟩]

/-- The proof data of pipeline 3 on core `c`: the arrays as the region finds them; after the body at point `t` each
    input's staging buffer still at its block and the output's at `out3_2` of the input blocks; the invariant is the
    scoped buffers no window stages and the generator register, untouched; nothing owed; the two input windows read ONE array, which the region deals between them, a half share each; the output's array at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => (fullShare : PosShare TreeShare).left
    | ⟨1, _⟩ => (fullShare : PosShare TreeShare).right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.Kernel.Hand

end
-- ==== Proof.K.Body3.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import proofs.«157436_g28449863369143_cont_9to1_491_9_alg».proof.Proof.K.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 of @main (`cc3__decode_kernel`): the body's run on whole staging buffers, and the pipeline's body obligation -/

/-- Input window 0's current staging buffer holds its block at every point, fetched there or not (where it is not
    fetched its block index has not moved), for any proof data whose array is the region-entry contents and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d

/-- Input window 1's current staging buffer holds its block at every point, fetched there or not (where it is not
    fetched its block index has not moved), for any proof data whose array is the region-entry contents and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_1 (c : Dev nD) (t : Fin cfg3.N) (d) : (dat3 V c).before 1 t d = iblk3 V c 1 t :=
  before3_1_of V (dat3 V c) (A_eq3 V c 1) (after3_1 V c) t d

/-- The body's one store covers the output window's staging buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The kernel body on whole staging memrefs — the inputs' at contents `x·`, the output's at anything — runs to its
    continuation with the inputs' as they were and the output's at `out3_2` of the inputs: every load is of a whole
    buffer, the value loaded from the output's buffer is not used, and the one store covers it. -/
theorem sound_kernel3 (c : Dev nD) (E : Set ℕ) (i : grid3.Coords) (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__decode_kernel i arg1 harg1 arg2 harg2 arg3 harg3) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`: the invariant, the core's dues, each window's current staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Shared3.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import proofs.«157436_g28449863369143_cont_9to1_491_9_alg».proof.Proof.K.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3's arrays: one buffer behind two input windows

Region 3 reads the latent code through two windows — a block of 400 rows, and the whole array — so its three windows
stand on two buffers: the latent code's, and the result's. When the region is entered the core holds both buffers whole;
the latent code's is dealt to the two input windows, a half share each (an input window only lends its array to the
fetches), and put together again when the region is left, both windows still holding what they were dealt. -/

/-- The pipeline's arrays, window by window: the latent code's buffer at the two half shares, the result's at the full
    share. -/
theorem arrays3_eq (c : Dev nD) (Fw : (w : Fin cfg3.W) → Buf (Elt F) ((cfg3.win w).arr.view.loc (c : Thread nD τ))) :
    ((dat3 V c).arrays Fw : sProp 𝕄) = iprop((((c : Thread nD τ).loc main_v3) ↦{(fullShare : PosShare TreeShare).left} Fw 0)
        ∗ (((c : Thread nD τ).loc main_v3) ↦{(fullShare : PosShare TreeShare).right} Fw 1)
        ∗ (((c : Thread nD τ).loc main_v4) ↦{fullShare} Fw 2)) := by
  unfold Dat.arrays
  rw [bigSep_W3, (arr_whole3 0).set_eq_univ, (arr_whole3 2).set_eq_univ]
  rfl

/-- The two buffers behind the arrays, each whole at the full share, among a core's unscoped buffers. -/
theorem unscopedBufs3 (c : Dev nD) (X : (b : Ref sig .tc) → Buf (Elt F) ((c : Thread nD τ).loc b)) :
    (unscopedBufs c X : sProp 𝕄) = iprop(((((c : Thread nD τ).loc main_v3) ↦{fullShare} X main_v3) ∗ (((c : Thread nD τ).loc main_v4) ↦{fullShare} X main_v4))
      ∗ Pipeline.unscopedRest spec3 c X) := by
  rw [Pipeline.unscopedBufs_split₀ cfgs 3 (fun w => (winFacts₀3.arr_unscoped w)) c X]
  unfold Pipeline.arrBufs
  rw [bigSep_eq_bigSepL_of_eq [main_v3, main_v4] (by decide) (by decide)]
  rfl

/-- ENTRY: a core's unscoped buffers at contents `X` are region 3's arrays at those contents and the other unscoped
    buffers: the latent code's buffer halved between the two windows that read it. -/
theorem entry3 (c : Dev nD) (X : (b : Ref sig .tc) → Buf (Elt F) ((c : Thread nD τ).loc b)) :
    (unscopedBufs c X : sProp 𝕄) ⊢ iprop((dat3 V c).arrays (fun w => X (Pipeline.arrRef spec3 w)) ∗ Pipeline.unscopedRest spec3 c X) := by
  rw [unscopedBufs3, arrays3_eq]
  iintro ⟨⟨H3, H4⟩, Hr⟩
  ihave H2 := (pointsTo_share (PosShare.mem_left_op_right (fullShare : PosShare TreeShare))).1 $$ H3
  icases H2 with ⟨HL, HR⟩
  isplitr [Hr]
  · isplitl [HL]; · iexact HL
    isplitl [HR]; · iexact HR
    iexact H4
  iexact Hr

/-- EXIT: region 3's arrays — the two input windows still at the latent code `X main_v3`, the result at `G` — and the
    other unscoped buffers at `X` are the core's unscoped buffers at any contents `X'` that has the result's buffer at
    `G` and agrees with `X` elsewhere. -/
theorem exit3 (c : Dev nD) (X X' : (b : Ref sig .tc) → Buf (Elt F) ((c : Thread nD τ).loc b))
    (Fw : (w : Fin cfg3.W) → Buf (Elt F) ((cfg3.win w).arr.view.loc (c : Thread nD τ)))
    (h0 : Fw 0 = X main_v3) (h1 : Fw 1 = X main_v3) (h2 : Fw 2 = X' main_v4)
    (hrest : ∀ b, b ≠ main_v4 → X' b = X b) :
    iprop((dat3 V c).arrays Fw ∗ Pipeline.unscopedRest spec3 c X) ⊢ (unscopedBufs c X' : sProp 𝕄) := by
  rw [unscopedBufs3, arrays3_eq, h0, h1, h2, hrest main_v3 (by decide)]
  have hr : (Pipeline.unscopedRest spec3 c X' : sProp 𝕄) = Pipeline.unscopedRest spec3 c X := by
    unfold Pipeline.unscopedRest
    exact bigSep_congr fun b hb => by
      rw [hrest b fun e => (Finset.mem_sdiff.mp hb).2 (Finset.mem_image.mpr ⟨2, Finset.mem_univ _, e.symm⟩)]
  rw [hr]
  iintro ⟨⟨HL, HR, H4⟩, Hr⟩
  isplitr [Hr]
  · isplitr [H4]
    · iapply (pointsTo_share (PosShare.mem_left_op_right (fullShare : PosShare TreeShare))).2
      isplitl [HL]; · iexact HL
      iexact HR
    iexact H4
  iexact Hr

end Cert.Kernel.Hand

end
-- ==== Proof.K.Run.lean ====
import proofs.«157436_g28449863369143_cont_9to1_491_9_alg».proof.Proof.Gen.Kernel.Launch
import proofs.«157436_g28449863369143_cont_9to1_491_9_alg».proof.Proof.Gen.Kernel.Skeleton
import proofs.«157436_g28449863369143_cont_9to1_491_9_alg».proof.Proof.Gen.Kernel.Points
import proofs.«157436_g28449863369143_cont_9to1_491_9_alg».proof.Proof.K.Body0
import proofs.«157436_g28449863369143_cont_9to1_491_9_alg».proof.Proof.K.Body1
import proofs.«157436_g28449863369143_cont_9to1_491_9_alg».proof.Proof.K.Body2
import proofs.«157436_g28449863369143_cont_9to1_491_9_alg».proof.Proof.K.Body3
import proofs.«157436_g28449863369143_cont_9to1_491_9_alg».proof.Proof.K.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations (the two heads' weights laid side by side), then the four regions

## The buffers' contents at each boundary, a fold from the launch memory -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (an input's as entered, the output's the write-backs of all
    grid points), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input's as entered, the output's the write-backs of all
    grid points), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input's as entered, the output's the write-backs of all
    grid points), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: the result's buffer at what the pipeline leaves, every other buffer as entered (the latent
    code, read through two windows, among them). -/
def W5 (c : Dev nD) : Valuation τ sig (Elt F) :=
  Function.update (W4 m ρ c) (Proc.devRef .tc main_v4) ((dat3 (V4 m ρ) c).arrAt 2 cfg3.N)
theorem W5_out (c : Dev nD) : W5 m ρ c (Proc.devRef .tc main_v4) = (dat3 (V4 m ρ) c).arrAt 2 cfg3.N := by
  unfold W5; exact Function.update_self ..
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) ..
/-- The same read at the TensorCore's references. -/
abbrev V5 : (c : Dev nD) → (b : Ref sig .tc) → Buf (Elt F) ((c : Thread nD τ).loc b) := fun c b => W5 m ρ c b

/-- The host stretch writes the fused weights' buffer only. -/
theorem W1_of_ne (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies with the printed one only when unification may
-- unfold plain definitions in a metavariable's type
set_option backward.isDefEq.respectTransparency.types false in
/-- REGION 0 over the thread state: entered with every unscoped buffer at `W1`, left with them at `W2`. Its arrays
    are split out of the unscoped buffers and put back at the contents the pipeline leaves; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 1 over the thread state: entered with every unscoped buffer at `W2`, left with them at `W3`. Its arrays
    are split out of the unscoped buffers and put back at the contents the pipeline leaves; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 2 over the thread state: entered with every unscoped buffer at `W3`, left with them at `W4`. Its arrays
    are split out of the unscoped buffers and put back at the contents the pipeline leaves; the generator register goes
    into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- REGION 3 over the thread state: entered with every unscoped buffer at `W4`, left with them at `W5`. Two of its
    windows read the latent code's one buffer, so the arrays are dealt out of the unscoped buffers and put back by
    `entry3` / `exit3` (the buffer halved between the two windows, then joined again); the rest is as in the regions before. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (unscopedBufs c (V4 m ρ c) : sProp 𝕄)
        ⊢ iprop((pdats m ρ 3 c).arrays ((pdats m ρ 3 c).arrAt · 0)
          ∗ Pipeline.unscopedRest (Ix := Unit) (Name := ℕ) (U := UR sig nD τ) (Lvl := ℕ) spec3 c (V4 m ρ c)) :=
      entry3 (V4 m ρ) c (V4 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
          ∗ Pipeline.unscopedRest (Ix := Unit) (Name := ℕ) (U := UR sig nD τ) (Lvl := ℕ) spec3 c (V4 m ρ c))
        ⊢ (unscopedBufs c (V5 m ρ c) : sProp 𝕄) :=
      exit3 (V4 m ρ) c (V4 m ρ c) (V5 m ρ c) ((dat3 (V4 m ρ) c).arrAt · cfg3.N)
        (((dat3 (V4 m ρ) c).arrAt_in 0 rfl _).trans (A_eq3 (V4 m ρ) c 0))
        (((dat3 (V4 m ρ) c).arrAt_in 1 rfl _).trans (A_eq3 (V4 m ρ) c 1))
        (W5_out m ρ c).symm (fun b hb => W5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state each unscoped buffer of each core holds the last
    boundary's contents `W5`: the arguments as launched, each region's result at what its pipeline left. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

/-- `main_arg0` reaches the end as launched: the host stretch does not write it and every region that names it only reads it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

/-- `main_arg1` reaches the end as launched: the host stretch does not write it and every region that names it only reads it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- `main_arg2` reaches the end as launched: the host stretch does not write it and every region that names it only reads it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := (W4_arr m ρ c 2).trans (((dat2 (V3 m ρ) c).arrAt_in 2 rfl _).trans (A_eq2 (V3 m ρ) c 2))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- `main_arg3` reaches the end as launched: the host stretch does not write it and every region that names it only reads it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of_ne m ρ c main_arg3 (by decide)
    _ = m ((c : Thread nD τ).loc main_arg3) := rfl

/-- `main_arg4` reaches the end as launched: the host stretch does not write it and every region that names it only reads it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- `main_arg5` reaches the end as launched: the host stretch does not write it and every region that names it only reads it. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

end Cert.Kernel.Hand

end
-- ==== Proof.KI.Dat0.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main (`cc0__s1_kernel`, pipeline 0) at the contents `V` its buffers hold when it is entered:
    the windows' blocks, what the body leaves in the output window's staging buffer, and the pipeline's proof data -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle through which the body loads input window 0's staging buffer. -/
abbrev r0_0 : Rect S10000x128 := Rect.unit (s := S10000x128) ![0, 0] S10000x128.size inb_S10000x128_S10000x128_0_0
/-- The whole-buffer rectangle through which the body loads input window 1's staging buffer. -/
abbrev r0_1 : Rect S128x32 := Rect.unit (s := S128x32) ![0, 0] S128x32.size inb_S128x32_S128x32_0_0
/-- The whole-buffer rectangle through which the body stores into the output window's staging buffer. -/
abbrev r0_2 : Rect S10000x32 := Rect.unit (s := S10000x32) ![0, 0] S10000x32.size inb_S10000x32_S10000x32_0_0

/-- The output window's staging buffer after the body, as a function of the input windows' staging buffers: its one
    store, of the body's arithmetic on the loaded blocks, covering the whole buffer. -/
def out0_2 (x0 : Vec F S10000x128 .f32) (x1 : Vec F S128x32 .f32) : Vec F S10000x32 .f32 :=
  View.canon [⟨r0_2, k0_pay1 (View.ld x0 r0_0) (View.ld x1 r0_1)⟩]

/-- The proof data of pipeline 0 on core `c`: the arrays as the region finds them; after the body at point `t` each
    input's staging buffer still at its block and the output's at `out0_2` of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.KernelIdeal.Hand

end
-- ==== Proof.KI.Body0.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import proofs.«157436_g28449863369143_cont_9to1_491_9_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main (`cc0__s1_kernel`): the body's run on whole staging buffers, and the pipeline's body obligation -/

/-- Input window 0's current staging buffer holds its block at every point, fetched there or not (where it is not
    fetched its block index has not moved), for any proof data whose array is the region-entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not (where it is not
    fetched its block index has not moved), for any proof data whose array is the region-entry contents and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- The body's one store covers the output window's staging buffer. -/
theorem cover0_2 (p0 : Vec F S10000x32 .f32) (y : S10000x32.Idx) :
    ∃ pc ∈ ([⟨r0_2, p0⟩] : List (View.Piece (Elt F) S10000x32 .f32)), y ∈ pc.1.set :=
  View.cover_of_tiled [⟨r0_2, p0⟩] S10000x32.size (by rfl) y

set_option maxHeartbeats 1000000 in
/-- The kernel body on whole staging memrefs — the inputs' at contents `x·`, the output's at anything — runs to its
    continuation with the inputs' as they were and the output's at `out0_2` of the inputs: every load is of a whole
    buffer, the value loaded from the output's buffer is not used, and the one store covers it. -/
theorem sound_kernel0 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__s1_kernel arg0 harg0 arg1 harg1 arg2 harg2) K := by
  simp only [cc0__s1_kernel_eq_skeleton]; unfold cc0__s1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`: the invariant, the core's dues, each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dat1.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of @main (`cc1__pass_a_kernel`, pipeline 1) at the contents `V` its buffers hold when it is entered:
    the windows' blocks, what the body leaves in the output window's staging buffer, and the pipeline's proof data -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangle through which the body loads input window 0's staging buffer. -/
abbrev r1_0 : Rect S400x10000 := Rect.unit (s := S400x10000) ![0, 0] S400x10000.size inb_S400x10000_S400x10000_0_0
/-- The whole-buffer rectangle through which the body loads input window 1's staging buffer. -/
abbrev r1_1 : Rect S10000x32 := Rect.unit (s := S10000x32) ![0, 0] S10000x32.size inb_S10000x32_S10000x32_0_0
/-- The whole-buffer rectangle through which the body loads input window 2's staging buffer. -/
abbrev r1_2 : Rect S32x32 := Rect.unit (s := S32x32) ![0, 0] S32x32.size inb_S32x32_S32x32_0_0
/-- The whole-buffer rectangle through which the body stores into the output window's staging buffer. -/
abbrev r1_3 : Rect S400x32 := Rect.unit (s := S400x32) ![0, 0] S400x32.size inb_S400x32_S400x32_0_0

/-- The output window's staging buffer after the body, as a function of the input windows' staging buffers: its one
    store, of the body's arithmetic on the loaded blocks, covering the whole buffer. -/
def out1_3 (x0 : Vec F S400x10000 .f32) (x1 : Vec F S10000x32 .f32) (x2 : Vec F S32x32 .f32) : Vec F S400x32 .f32 :=
  View.canon [⟨r1_3, k1_pay1 (View.ld x0 r1_0) (View.ld x1 r1_1) (View.ld x2 r1_2)⟩]

/-- The proof data of pipeline 1 on core `c`: the arrays as the region finds them; after the body at point `t` each
    input's staging buffer still at its block and the output's at `out1_3` of the input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.KernelIdeal.Hand

end
-- ==== Proof.KI.Body1.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import proofs.«157436_g28449863369143_cont_9to1_491_9_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 of @main (`cc1__pass_a_kernel`): the body's run on whole staging buffers, and the pipeline's body obligation -/

/-- Input window 0's current staging buffer holds its block at every point, fetched there or not (where it is not
    fetched its block index has not moved), for any proof data whose array is the region-entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not (where it is not
    fetched its block index has not moved), for any proof data whose array is the region-entry contents and whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not (where it is not
    fetched its block index has not moved), for any proof data whose array is the region-entry contents and whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- The body's one store covers the output window's staging buffer. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y

set_option maxHeartbeats 1000000 in
/-- The kernel body on whole staging memrefs — the inputs' at contents `x·`, the output's at anything — runs to its
    continuation with the inputs' as they were and the output's at `out1_3` of the inputs: every load is of a whole
    buffer, the value loaded from the output's buffer is not used, and the one store covers it. -/
theorem sound_kernel1 (c : Dev nD) (E : Set ℕ) (i : grid1.Coords) (arg1 : Memref sig .tc .vmem S400x10000 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass_a_kernel i arg1 harg1 arg2 harg2 arg3 harg3 arg4 harg4) K := by
  simp only [cc1__pass_a_kernel_eq_skeleton]; unfold cc1__pass_a_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, the core's dues, each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Dat2.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of @main (`cc2__pass_b_kernel`, pipeline 2) at the contents `V` its buffers hold when it is entered:
    the windows' blocks, what the body leaves in the output window's staging buffer, and the pipeline's proof data -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangle through which the body loads input window 0's staging buffer. -/
abbrev r2_0 : Rect S400x10000 := Rect.unit (s := S400x10000) ![0, 0] S400x10000.size inb_S400x10000_S400x10000_0_0
/-- The whole-buffer rectangle through which the body loads input window 1's staging buffer. -/
abbrev r2_1 : Rect S10000x32 := Rect.unit (s := S10000x32) ![0, 0] S10000x32.size inb_S10000x32_S10000x32_0_0
/-- The whole-buffer rectangle through which the body loads input window 2's staging buffer. -/
abbrev r2_2 : Rect S400x16 := Rect.unit (s := S400x16) ![0, 0] S400x16.size inb_S400x16_S400x16_0_0
/-- The whole-buffer rectangle through which the body stores into the output window's staging buffer. -/
abbrev r2_3 : Rect S400x16 := Rect.unit (s := S400x16) ![0, 0] S400x16.size inb_S400x16_S400x16_0_0

/-- The output window's staging buffer after the body, as a function of the input windows' staging buffers: its one
    store, of the body's arithmetic on the loaded blocks, covering the whole buffer. -/
def out2_3 (x0 : Vec F S400x10000 .f32) (x1 : Vec F S10000x32 .f32) (x2 : Vec F S400x16 .f32) : Vec F S400x16 .f32 :=
  View.canon [⟨r2_3, k2_pay1 (View.ld x0 r2_0) (View.ld x1 r2_1) (View.ld x2 r2_2)⟩]

/-- The proof data of pipeline 2 on core `c`: the arrays as the region finds them; after the body at point `t` each
    input's staging buffer still at its block and the output's at `out2_3` of the input blocks; the invariant is the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Cert.KernelIdeal.Hand

end
-- ==== Proof.KI.Body2.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import proofs.«157436_g28449863369143_cont_9to1_491_9_alg».proof.Proof.KI.Dat2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of @main (`cc2__pass_b_kernel`): the body's run on whole staging buffers, and the pipeline's body obligation -/

/-- Input window 0's current staging buffer holds its block at every point, fetched there or not (where it is not
    fetched its block index has not moved), for any proof data whose array is the region-entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, fetched there or not (where it is not
    fetched its block index has not moved), for any proof data whose array is the region-entry contents and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, fetched there or not (where it is not
    fetched its block index has not moved), for any proof data whose array is the region-entry contents and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- The body's one store covers the output window's staging buffer. -/
theorem cover2_3 (p0 : Vec F S400x16 .f32) (y : S400x16.Idx) :
    ∃ pc ∈ ([⟨r2_3, p0⟩] : List (View.Piece (Elt F) S400x16 .f32)), y ∈ pc.1.set :=
  View.cover_of_tiled [⟨r2_3, p0⟩] S400x16.size (by rfl) y

set_option maxHeartbeats 1000000 in
/-- The kernel body on whole staging memrefs — the inputs' at contents `x·`, the output's at anything — runs to its
    continuation with the inputs' as they were and the output's at `out2_3` of the inputs: every load is of a whole
    buffer, the value loaded from the output's buffer is not used, and the one store covers it. -/
theorem sound_kernel2 (c : Dev nD) (E : Set ℕ) (i : grid2.Coords) (arg1 : Memref sig .tc .vmem S400x10000 .f32) (harg1 : arg1.IsWhole) (arg2 : Memref sig .tc .vmem S10000x32 .f32) (harg2 : arg2.IsWhole) (arg3 : Memref sig .tc .vmem S400x16 .f32) (harg3 : arg3.IsWhole) (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__pass_b_kernel i arg1 harg1 arg2 harg2 arg3 harg3 arg4 harg4) K := by
  simp only [cc2__pass_b_kernel_eq_skeleton]; unfold cc2__pass_b_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`: the invariant, the core's dues, each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Dat3.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 of @main (`cc3__decode_kernel`, pipeline 3) at the contents `V` its buffers hold when it is entered:
    the windows' blocks, what the body leaves in the output window's staging buffer, and the pipeline's proof data -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangle through which the body loads input window 0's staging buffer. -/
abbrev r3_0 : Rect S400x16 := Rect.unit (s := S400x16) ![0, 0] S400x16.size inb_S400x16_S400x16_0_0
/-- The whole-buffer rectangle through which the body loads input window 1's staging buffer. -/
abbrev r3_1 : Rect S10000x16 := Rect.unit (s := S10000x16) ![0, 0] S10000x16.size inb_S10000x16_S10000x16_0_0
/-- The whole-buffer rectangle through which the body stores into the output window's staging buffer. -/
abbrev r3_2 : Rect S400x10000 := Rect.unit (s := S400x10000) ![0, 0] S400x10000.size inb_S400x10000_S400x10000_0_0

/-- The output window's staging buffer after the body, as a function of the input windows' staging buffers: its one
    store, of the body's arithmetic on the loaded blocks, covering the whole buffer. -/
def out3_2 (x0 : Vec F S400x16 .f32) (x1 : Vec F S10000x16 .f32) : Vec F S400x10000 .f32 :=
  View.canon [⟨r3_2, k3_pay1 (View.ld x0 r3_0) (View.ld x1 r3_1)⟩]

/-- The proof data of pipeline 3 on core `c`: the arrays as the region finds them; after the body at point `t` each
    input's staging buffer still at its block and the output's at `out3_2` of the input blocks; the invariant is the
    scoped buffers no window stages and the generator register, untouched; nothing owed; the two input windows read ONE array, which the region deals between them, a half share each; the output's array at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => (fullShare : PosShare TreeShare).left
    | ⟨1, _⟩ => (fullShare : PosShare TreeShare).right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

end Cert.KernelIdeal.Hand

end
-- ==== Proof.KI.Body3.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import proofs.«157436_g28449863369143_cont_9to1_491_9_alg».proof.Proof.KI.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 of @main (`cc3__decode_kernel`): the body's run on whole staging buffers, and the pipeline's body obligation -/

/-- Input window 0's current staging buffer holds its block at every point, fetched there or not (where it is not
    fetched its block index has not moved), for any proof data whose array is the region-entry contents and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d

/-- Input window 1's current staging buffer holds its block at every point, fetched there or not (where it is not
    fetched its block index has not moved), for any proof data whose array is the region-entry contents and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_1 (c : Dev nD) (t : Fin cfg3.N) (d) : (dat3 V c).before 1 t d = iblk3 V c 1 t :=
  before3_1_of V (dat3 V c) (A_eq3 V c 1) (after3_1 V c) t d

/-- The body's one store covers the output window's staging buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The kernel body on whole staging memrefs — the inputs' at contents `x·`, the output's at anything — runs to its
    continuation with the inputs' as they were and the output's at `out3_2` of the inputs: every load is of a whole
    buffer, the value loaded from the output's buffer is not used, and the one store covers it. -/
theorem sound_kernel3 (c : Dev nD) (E : Set ℕ) (i : grid3.Coords) (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__decode_kernel i arg1 harg1 arg2 harg2 arg3 harg3) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`: the invariant, the core's dues, each window's current staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Shared3.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import proofs.«157436_g28449863369143_cont_9to1_491_9_alg».proof.Proof.KI.Dat3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3's arrays: one buffer behind two input windows

Region 3 reads the latent code through two windows — a block of 400 rows, and the whole array — so its three windows
stand on two buffers: the latent code's, and the result's. When the region is entered the core holds both buffers whole;
the latent code's is dealt to the two input windows, a half share each (an input window only lends its array to the
fetches), and put together again when the region is left, both windows still holding what they were dealt. -/

/-- The pipeline's arrays, window by window: the latent code's buffer at the two half shares, the result's at the full
    share. -/
theorem arrays3_eq (c : Dev nD) (Fw : (w : Fin cfg3.W) → Buf (Elt F) ((cfg3.win w).arr.view.loc (c : Thread nD τ))) :
    ((dat3 V c).arrays Fw : sProp 𝕄) = iprop((((c : Thread nD τ).loc main_v3) ↦{(fullShare : PosShare TreeShare).left} Fw 0)
        ∗ (((c : Thread nD τ).loc main_v3) ↦{(fullShare : PosShare TreeShare).right} Fw 1)
        ∗ (((c : Thread nD τ).loc main_v4) ↦{fullShare} Fw 2)) := by
  unfold Dat.arrays
  rw [bigSep_W3, (arr_whole3 0).set_eq_univ, (arr_whole3 2).set_eq_univ]
  rfl

/-- The two buffers behind the arrays, each whole at the full share, among a core's unscoped buffers. -/
theorem unscopedBufs3 (c : Dev nD) (X : (b : Ref sig .tc) → Buf (Elt F) ((c : Thread nD τ).loc b)) :
    (unscopedBufs c X : sProp 𝕄) = iprop(((((c : Thread nD τ).loc main_v3) ↦{fullShare} X main_v3) ∗ (((c : Thread nD τ).loc main_v4) ↦{fullShare} X main_v4))
      ∗ Pipeline.unscopedRest spec3 c X) := by
  rw [Pipeline.unscopedBufs_split₀ cfgs 3 (fun w => (winFacts₀3.arr_unscoped w)) c X]
  unfold Pipeline.arrBufs
  rw [bigSep_eq_bigSepL_of_eq [main_v3, main_v4] (by decide) (by decide)]
  rfl

/-- ENTRY: a core's unscoped buffers at contents `X` are region 3's arrays at those contents and the other unscoped
    buffers: the latent code's buffer halved between the two windows that read it. -/
theorem entry3 (c : Dev nD) (X : (b : Ref sig .tc) → Buf (Elt F) ((c : Thread nD τ).loc b)) :
    (unscopedBufs c X : sProp 𝕄) ⊢ iprop((dat3 V c).arrays (fun w => X (Pipeline.arrRef spec3 w)) ∗ Pipeline.unscopedRest spec3 c X) := by
  rw [unscopedBufs3, arrays3_eq]
  iintro ⟨⟨H3, H4⟩, Hr⟩
  ihave H2 := (pointsTo_share (PosShare.mem_left_op_right (fullShare : PosShare TreeShare))).1 $$ H3
  icases H2 with ⟨HL, HR⟩
  isplitr [Hr]
  · isplitl [HL]; · iexact HL
    isplitl [HR]; · iexact HR
    iexact H4
  iexact Hr

/-- EXIT: region 3's arrays — the two input windows still at the latent code `X main_v3`, the result at `G` — and the
    other unscoped buffers at `X` are the core's unscoped buffers at any contents `X'` that has the result's buffer at
    `G` and agrees with `X` elsewhere. -/
theorem exit3 (c : Dev nD) (X X' : (b : Ref sig .tc) → Buf (Elt F) ((c : Thread nD τ).loc b))
    (Fw : (w : Fin cfg3.W) → Buf (Elt F) ((cfg3.win w).arr.view.loc (c : Thread nD τ)))
    (h0 : Fw 0 = X main_v3) (h1 : Fw 1 = X main_v3) (h2 : Fw 2 = X' main_v4)
    (hrest : ∀ b, b ≠ main_v4 → X' b = X b) :
    iprop((dat3 V c).arrays Fw ∗ Pipeline.unscopedRest spec3 c X) ⊢ (unscopedBufs c X' : sProp 𝕄) := by
  rw [unscopedBufs3, arrays3_eq, h0, h1, h2, hrest main_v3 (by decide)]
  have hr : (Pipeline.unscopedRest spec3 c X' : sProp 𝕄) = Pipeline.unscopedRest spec3 c X := by
    unfold Pipeline.unscopedRest
    exact bigSep_congr fun b hb => by
      rw [hrest b fun e => (Finset.mem_sdiff.mp hb).2 (Finset.mem_image.mpr ⟨2, Finset.mem_univ _, e.symm⟩)]
  rw [hr]
  iintro ⟨⟨HL, HR, H4⟩, Hr⟩
  isplitr [Hr]
  · isplitr [H4]
    · iapply (pointsTo_share (PosShare.mem_left_op_right (fullShare : PosShare TreeShare))).2
      isplitl [HL]; · iexact HL
      iexact HR
    iexact H4
  iexact Hr

end Cert.KernelIdeal.Hand

end
-- ==== Proof.KI.Run.lean ====
import proofs.«157436_g28449863369143_cont_9to1_491_9_alg».proof.Proof.Gen.KernelIdeal.Launch
import proofs.«157436_g28449863369143_cont_9to1_491_9_alg».proof.Proof.Gen.KernelIdeal.Skeleton
import proofs.«157436_g28449863369143_cont_9to1_491_9_alg».proof.Proof.Gen.KernelIdeal.Points
import proofs.«157436_g28449863369143_cont_9to1_491_9_alg».proof.Proof.KI.Body0
import proofs.«157436_g28449863369143_cont_9to1_491_9_alg».proof.Proof.KI.Body1
import proofs.«157436_g28449863369143_cont_9to1_491_9_alg».proof.Proof.KI.Body2
import proofs.«157436_g28449863369143_cont_9to1_491_9_alg».proof.Proof.KI.Body3
import proofs.«157436_g28449863369143_cont_9to1_491_9_alg».proof.Proof.KI.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations (the two heads' weights laid side by side), then the four regions

## The buffers' contents at each boundary, a fold from the launch memory -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (an input's as entered, the output's the write-backs of all
    grid points), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input's as entered, the output's the write-backs of all
    grid points), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input's as entered, the output's the write-backs of all
    grid points), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: the result's buffer at what the pipeline leaves, every other buffer as entered (the latent
    code, read through two windows, among them). -/
def W5 (c : Dev nD) : Valuation τ sig (Elt F) :=
  Function.update (W4 m ρ c) (Proc.devRef .tc main_v4) ((dat3 (V4 m ρ) c).arrAt 2 cfg3.N)
theorem W5_out (c : Dev nD) : W5 m ρ c (Proc.devRef .tc main_v4) = (dat3 (V4 m ρ) c).arrAt 2 cfg3.N := by
  unfold W5; exact Function.update_self ..
theorem W5_of_ne (c : Dev nD) (b : Ref sig .tc) (hb : b ≠ main_v4) :
    W5 m ρ c (Proc.devRef .tc b) = W4 m ρ c (Proc.devRef .tc b) := by
  unfold W5; exact Function.update_of_ne (StableHlo.devRef_ne_of_ne hb) ..
/-- The same read at the TensorCore's references. -/
abbrev V5 : (c : Dev nD) → (b : Ref sig .tc) → Buf (Elt F) ((c : Thread nD τ).loc b) := fun c b => W5 m ρ c b

/-- The host stretch writes the fused weights' buffer only. -/
theorem W1_of_ne (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over the pinned configuration unifies with the printed one only when unification may
-- unfold plain definitions in a metavariable's type
set_option backward.isDefEq.respectTransparency.types false in
/-- REGION 0 over the thread state: entered with every unscoped buffer at `W1`, left with them at `W2`. Its arrays
    are split out of the unscoped buffers and put back at the contents the pipeline leaves; the generator register goes
    into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 1 over the thread state: entered with every unscoped buffer at `W2`, left with them at `W3`. Its arrays
    are split out of the unscoped buffers and put back at the contents the pipeline leaves; the generator register goes
    into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with the printed one only when unification may
-- unfold plain definitions in a metavariable's type
set_option backward.isDefEq.respectTransparency.types false in
/-- REGION 2 over the thread state: entered with every unscoped buffer at `W3`, left with them at `W4`. Its arrays
    are split out of the unscoped buffers and put back at the contents the pipeline leaves; the generator register goes
    into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- REGION 3 over the thread state: entered with every unscoped buffer at `W4`, left with them at `W5`. Two of its
    windows read the latent code's one buffer, so the arrays are dealt out of the unscoped buffers and put back by
    `entry3` / `exit3` (the buffer halved between the two windows, then joined again); the rest is as in the regions before. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit : (unscopedBufs c (V4 m ρ c) : sProp 𝕄)
        ⊢ iprop((pdats m ρ 3 c).arrays ((pdats m ρ 3 c).arrAt · 0)
          ∗ Pipeline.unscopedRest (Ix := Unit) (Name := ℕ) (U := UR sig nD τ) (Lvl := ℕ) spec3 c (V4 m ρ c)) :=
      entry3 (V4 m ρ) c (V4 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
          ∗ Pipeline.unscopedRest (Ix := Unit) (Name := ℕ) (U := UR sig nD τ) (Lvl := ℕ) spec3 c (V4 m ρ c))
        ⊢ (unscopedBufs c (V5 m ρ c) : sProp 𝕄) :=
      exit3 (V4 m ρ) c (V4 m ρ c) (V5 m ρ c) ((dat3 (V4 m ρ) c).arrAt · cfg3.N)
        (((dat3 (V4 m ρ) c).arrAt_in 0 rfl _).trans (A_eq3 (V4 m ρ) c 0))
        (((dat3 (V4 m ρ) c).arrAt_in 1 rfl _).trans (A_eq3 (V4 m ρ) c 1))
        (W5_out m ρ c).symm (fun b hb => W5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state each unscoped buffer of each core holds the last
    boundary's contents `W5`: the arguments as launched, each region's result at what its pipeline left. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

/-- `main_arg0` reaches the end as launched: the host stretch does not write it and every region that names it only reads it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

/-- `main_arg1` reaches the end as launched: the host stretch does not write it and every region that names it only reads it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- `main_arg2` reaches the end as launched: the host stretch does not write it and every region that names it only reads it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := (W4_arr m ρ c 2).trans (((dat2 (V3 m ρ) c).arrAt_in 2 rfl _).trans (A_eq2 (V3 m ρ) c 2))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- `main_arg3` reaches the end as launched: the host stretch does not write it and every region that names it only reads it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of_ne m ρ c main_arg3 (by decide)
    _ = m ((c : Thread nD τ).loc main_arg3) := rfl

/-- `main_arg4` reaches the end as launched: the host stretch does not write it and every region that names it only reads it. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- `main_arg5` reaches the end as launched: the host stretch does not write it and every region that names it only reads it. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

end Cert.KernelIdeal.Hand

end
-- ==== Proof.LibMatProduct.lean ====
/-
  Matrix products on the extended reals, entry by entry, and three rearrangements of them.

  `mm A B` is the product of an `M × K` by a `K × N` matrix of extended reals, `(A ⬝ B)(p, c) = ∑ k, A(p, k) · B(k, c)`,
  over index types built from coordinates (`ValueIdx.ix2`); `relu` is the entrywise maximum with zero.

  * An entry of a product depends on one column of the right factor: the left (right) block of columns of
    `A ⬝ [B₁ | B₂]` is `A ⬝ B₁` (`A ⬝ B₂`) — `mm_cols_left`, `mm_cols_right`.
  * A product whose right factor is `B₁` stacked on a block of zeros is the product of the left block of columns
    of the left factor with `B₁` — `mm_pad_zero`.  The other terms of every sum are products with zero, and
    `x * 0 = 0` for EVERY extended real `x`, infinite ones included, so nothing has to be finite.
  * `sum_mul_congr`, `max_sum_mul_congr`: a sum of products (and its maximum with zero) under replacing each
    factor by an equal one — the form in which a block of a product, read where its window puts it in its array,
    meets the product of the whole arrays.
-/
import Idealize.ShloMosaic.PureOps.Ideal
import Idealize.ShloMosaic.Lib.ValueIdx

noncomputable section

open scoped BigOperators

namespace Cert.Lib.MatProduct

open Idealize.ShloMosaic Idealize.ShloMosaic.ValueIdx

variable {M K N : Nat}

/-- An `a × b` matrix of extended reals. -/
abbrev Mat (a b : Nat) : Type := (⟨2, ![a, b]⟩ : Shape).Idx → EReal

/-- The matrix product on the extended reals: entry `(p, c)` is `∑ k, A(p, k) · B(k, c)`. -/
def mm (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply (A : (⟨2, ![M, K]⟩ : Shape).Idx → EReal) (B : (⟨2, ![K, N]⟩ : Shape).Idx → EReal)
    (p : Fin M) (c : Fin N) : mm A B (ix2 p c) = ∑ k : Fin K, A (ix2 p k) * B (ix2 k c) := rfl

/-- The entrywise maximum with zero. -/
def relu {s : Shape} (A : s.Idx → EReal) : s.Idx → EReal := fun i => max (A i) 0

theorem relu_apply {s : Shape} (A : s.Idx → EReal) (i : s.Idx) : relu A i = max (A i) 0 := rfl

/-- A sum of products changes by nothing when each factor is replaced by an equal one. -/
theorem sum_mul_congr (f f' g g' : Fin K → EReal) (hf : ∀ k, f k = f' k) (hg : ∀ k, g k = g' k) :
    ∑ k : Fin K, f k * g k = ∑ k : Fin K, f' k * g' k :=
  Finset.sum_congr rfl fun k _ => by rw [hf, hg]

/-- The same under the maximum with zero. -/
theorem max_sum_mul_congr (f f' g g' : Fin K → EReal) (hf : ∀ k, f k = f' k) (hg : ∀ k, g k = g' k) :
    max (∑ k : Fin K, f k * g k) 0 = max (∑ k : Fin K, f' k * g' k) 0 :=
  congrArg (fun s => max s (0 : EReal)) (sum_mul_congr f f' g g' hf hg)

/-- Two matrices that agree entry by entry are equal. -/
theorem ext2 {A B : (⟨2, ![M, N]⟩ : Shape).Idx → EReal}
    (h : ∀ (p : Fin M) (c : Fin N), A (ix2 p c) = B (ix2 p c)) : A = B :=
  funext fun i => by rw [eq_ix2 i]; exact h _ _

/-- The left block of the columns of `A ⬝ [B₁ | B₂]` is `A ⬝ B₁`. -/
theorem mm_cols_left {N₁ N₂ : Nat} (A : (⟨2, ![M, K]⟩ : Shape).Idx → EReal)
    (B : (⟨2, ![K, N₁ + N₂]⟩ : Shape).Idx → EReal) (B₁ : (⟨2, ![K, N₁]⟩ : Shape).Idx → EReal)
    (hB : ∀ (k : Fin K) (c : Fin N₁), B (ix2 k (Fin.castAdd N₂ c)) = B₁ (ix2 k c))
    (p : Fin M) (c : Fin N₁) : mm A B (ix2 p (Fin.castAdd N₂ c)) = mm A B₁ (ix2 p c) := by
  rw [mm_apply, mm_apply]
  exact Finset.sum_congr rfl fun k _ => by rw [hB]

/-- The right block of the columns of `A ⬝ [B₁ | B₂]` is `A ⬝ B₂`. -/
theorem mm_cols_right {N₁ N₂ : Nat} (A : (⟨2, ![M, K]⟩ : Shape).Idx → EReal)
    (B : (⟨2, ![K, N₁ + N₂]⟩ : Shape).Idx → EReal) (B₂ : (⟨2, ![K, N₂]⟩ : Shape).Idx → EReal)
    (hB : ∀ (k : Fin K) (c : Fin N₂), B (ix2 k (Fin.natAdd N₁ c)) = B₂ (ix2 k c))
    (p : Fin M) (c : Fin N₂) : mm A B (ix2 p (Fin.natAdd N₁ c)) = mm A B₂ (ix2 p c) := by
  rw [mm_apply, mm_apply]
  exact Finset.sum_congr rfl fun k _ => by rw [hB]

/-- A product whose right factor is `B₁` stacked on zeros is the product of the left columns with `B₁`:
    the other terms of every sum are products with zero. -/
theorem mm_pad_zero {K₁ K₂ : Nat} (A : (⟨2, ![M, K₁ + K₂]⟩ : Shape).Idx → EReal)
    (B : (⟨2, ![K₁ + K₂, N]⟩ : Shape).Idx → EReal) (A₁ : (⟨2, ![M, K₁]⟩ : Shape).Idx → EReal)
    (B₁ : (⟨2, ![K₁, N]⟩ : Shape).Idx → EReal)
    (hA : ∀ (p : Fin M) (k : Fin K₁), A (ix2 p (Fin.castAdd K₂ k)) = A₁ (ix2 p k))
    (hB : ∀ (k : Fin K₁) (c : Fin N), B (ix2 (Fin.castAdd K₂ k) c) = B₁ (ix2 k c))
    (hZ : ∀ (k : Fin K₂) (c : Fin N), B (ix2 (Fin.natAdd K₁ k) c) = 0) : mm A B = mm A₁ B₁ := by
  refine ext2 fun p c => ?_
  rw [mm_apply, mm_apply, Fin.sum_univ_add]
  have hz : ∑ k : Fin K₂, A (ix2 p (Fin.natAdd K₁ k)) * B (ix2 (Fin.natAdd K₁ k) c) = 0 :=
    Finset.sum_eq_zero fun k _ => by rw [hZ, mul_zero]
  rw [hz, add_zero]
  exact Finset.sum_congr rfl fun k _ => by rw [hA, hB]

end Cert.Lib.MatProduct

end
-- ==== Proof.Spec.lean ====
/-
  The graph variational auto-encoder's forward pass as functions on matrices of extended reals.

  With `A` the dense adjacency (10000 × 10000), `x` the node features (10000 × 128), `ε` the noise (10000 × 16) and the
  weights `W₁` (128 × 32), `Wμ`, `Wσ` (32 × 16):

      h  = relu (A ⬝ (x ⬝ W₁))                         the first graph convolution
      μ  = A ⬝ (h ⬝ Wμ),   s = A ⬝ (h ⬝ Wσ)            the second, once per head
      z  = μ + ε · exp s                               the reparameterisation
      Â  = z ⬝ zᵀ                                      the decoder: the Gram matrix of the rows of z

  The same network with the two heads' weights laid side by side, `W = [Wμ | Wσ]` (32 × 32): one product
  `m = A ⬝ (h ⬝ W)` (10000 × 32) whose left 16 columns are `μ` and whose right 16 columns are `s`. An entry of a matrix
  product depends on one column of its right factor only, so the two forms agree entry by entry (`latentFused_eq`); no
  sum is rearranged and nothing has to be finite.
-/
import proofs.«157436_g28449863369143_cont_9to1_491_9_alg».proof.Proof.LibMatProduct

noncomputable section

open scoped BigOperators

namespace Gvae

open Idealize.ShloMosaic Idealize.ShloMosaic.ValueIdx Cert.Lib.MatProduct

/-- The first graph convolution: `relu (A ⬝ (x ⬝ W₁))`. -/
def hidden (x : Mat 10000 128) (adj : Mat 10000 10000) (W1 : Mat 128 32) : Mat 10000 32 :=
  relu (mm adj (mm x W1))

/-- The latent code from the two heads computed apart: `z = A ⬝ (h ⬝ Wμ) + ε · exp (A ⬝ (h ⬝ Wσ))`. -/
def latent (adj : Mat 10000 10000) (h : Mat 10000 32) (eps : Mat 10000 16) (Wmu Wsig : Mat 32 16) : Mat 10000 16 :=
  fun i => mm adj (mm h Wmu) i + eps i * Ideal.exp (mm adj (mm h Wsig) i)

/-- The reparameterisation read off a matrix `m` of 16 + 16 columns: column `c` of the result is column `c` of `m` plus
    `ε` times the exponential of column `16 + c`. -/
def reparam (m : Mat 10000 (16 + 16)) (eps : Mat 10000 16) : Mat 10000 16 :=
  fun i => m (ix2 (i 0) (Fin.castAdd 16 (i 1))) + eps i * Ideal.exp (m (ix2 (i 0) (Fin.natAdd 16 (i 1))))

theorem reparam_apply (m : Mat 10000 (16 + 16)) (eps : Mat 10000 16) (p : Fin 10000) (c : Fin 16) :
    reparam m eps (ix2 p c) = m (ix2 p (Fin.castAdd 16 c)) + eps (ix2 p c) * Ideal.exp (m (ix2 p (Fin.natAdd 16 c))) := rfl

/-- The latent code from the fused product `m = A ⬝ (h ⬝ [Wμ | Wσ])`. -/
def latentFused (adj : Mat 10000 10000) (h : Mat 10000 32) (eps : Mat 10000 16) (W : Mat 32 (16 + 16)) : Mat 10000 16 :=
  reparam (mm adj (mm h W)) eps

/-- The decoder: the Gram matrix of the rows of `z`. -/
def gram (z : Mat 10000 16) : Mat 10000 10000 :=
  fun i => ∑ k : Fin 16, z (ix2 (i 0) k) * z (ix2 (i 1) k)

/-- The whole forward pass. -/
def adjHat (x : Mat 10000 128) (adj : Mat 10000 10000) (eps : Mat 10000 16) (W1 : Mat 128 32) (Wmu Wsig : Mat 32 16) :
    Mat 10000 10000 :=
  gram (latent adj (hidden x adj W1) eps Wmu Wsig)

/-- The fused form is the two-head form when the fused weight matrix is the heads' side by side. -/
theorem gram_apply (z : Mat 10000 16) (p q : Fin 10000) : gram z (ix2 p q) = ∑ k : Fin 16, z (ix2 p k) * z (ix2 q k) := rfl

theorem latentFused_eq (adj : Mat 10000 10000) (h : Mat 10000 32) (eps : Mat 10000 16) (W : Mat 32 (16 + 16))
    (Wmu Wsig : Mat 32 16)
    (hl : ∀ (k : Fin 32) (c : Fin 16), W (ix2 k (Fin.castAdd 16 c)) = Wmu (ix2 k c))
    (hr : ∀ (k : Fin 32) (c : Fin 16), W (ix2 k (Fin.natAdd 16 c)) = Wsig (ix2 k c)) :
    latentFused adj h eps W = latent adj h eps Wmu Wsig := by
  refine ext2 fun p c => ?_
  show mm adj (mm h W) (ix2 p (Fin.castAdd 16 c)) + eps (ix2 p c) * Ideal.exp (mm adj (mm h W) (ix2 p (Fin.natAdd 16 c)))
    = mm adj (mm h Wmu) (ix2 p c) + eps (ix2 p c) * Ideal.exp (mm adj (mm h Wsig) (ix2 p c))
  rw [mm_cols_left adj (mm h W) (mm h Wmu) (fun k c' => mm_cols_left h W Wmu hl k c') p c,
    mm_cols_right adj (mm h W) (mm h Wsig) (fun k c' => mm_cols_right h W Wsig hr k c') p c]

end Gvae

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.KI.Val0.lean ====
/-
  What the first launch leaves in its result: the product of the features with the first layer's weights.

  The launch has one grid point and stages the three arrays whole, so the block a window reads or writes is the array
  itself. The body's one store is a matrix-unit product into the zero accumulator, which on the extended reals is
  `∑ k, x(p, k) · W₁(k, c)` at entry `(p, c)`.
-/
import proofs.«157436_g28449863369143_cont_9to1_491_9_alg».proof.Proof.KI.Dat0
import proofs.«157436_g28449863369143_cont_9to1_491_9_alg».proof.Proof.Spec
import proofs.«157436_g28449863369143_cont_9to1_491_9_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Lib.MatProduct

variable (V : (c : Dev nD) → (b : Ref sig .tc) → Buf (Elt Ideal) ((c : Thread nD τ).loc b))

/-! # Region 0 at the extended reals: the features times the first layer's weights

The kernel has no grid: its one point stages both arrays whole, multiplies them into a zero accumulator and writes the
whole product back. -/

/-- Region 0's arithmetic at an entry `(p, q)`: a product into the zero accumulator, so the sum over the shared axis of
    the products `x₀(p, k) · x₁(k, q)`. -/
theorem pay0_apply (x0 : Vec Ideal S10000x128 .f32) (x1 : Vec Ideal S128x32 .f32) (p : Fin 10000) (q : Fin 32) :
    k0_pay1 x0 x1 (ix2 p q) = ∑ k : Fin 128, x0 (ix2 p k) * x1 (ix2 k q) := by
  unfold k0_pay1
  exact Cert.Lib.PlainDot.matmul_plain_zero_apply none x0 x1 p q

/-- Offsets spelt as a list of zeros are the zero offsets. -/
theorem zeroOffsets0 : (![0, 0] : Fin 2 → Nat) = fun _ => 0 := funext fun a => by fin_cases a <;> rfl

/-- The arithmetic of staged blocks that agree entry by entry with matrices `A` and `B`, read at `j`, is the entry of
    `A ⬝ B` at any index `i` with `j`'s coordinates. -/
theorem pay0_eq_mm (x0 : Vec Ideal S10000x128 .f32) (x1 : Vec Ideal S128x32 .f32) (A : Mat 10000 128) (B : Mat 128 32)
    (h0 : ∀ (p : Fin 10000) (k : Fin 128), x0 (ix2 p k) = A (ix2 p k))
    (h1 : ∀ (k : Fin 128) (q : Fin 32), x1 (ix2 k q) = B (ix2 k q))
    (j i : S10000x32.Idx) (hi0 : (i 0).val = (j 0).val) (hi1 : (i 1).val = (j 1).val) :
    k0_pay1 x0 x1 j = mm A B i := by
  have e : i = j := funext fun a => Fin.ext (by
    match a with
    | ⟨0, _⟩ => exact hi0
    | ⟨1, _⟩ => exact hi1)
  subst e
  obtain ⟨p, q, rfl⟩ : ∃ (p : Fin 10000) (q : Fin 32), i = ix2 p q := ⟨i 0, i 1, eq_ix2 i⟩
  refine (pay0_apply x0 x1 p q).trans ?_
  rw [mm_apply]
  exact sum_mul_congr _ _ _ _ (fun k => h0 p k) (fun k => h1 k q)

/-- The features' window stages the whole array: its block at the one point, read at `(p, k)`, is the array there. -/
theorem iblk0_0_apply (c : Dev nD) (t : Fin cfg0.N) (p : Fin 10000) (k : Fin 128) :
    (iblk0 V c 0 t : Vec Ideal S10000x128 .f32) (ix2 p k) = (V c main_arg0 : S10000x128.Idx → EReal) (ix2 p k) := by
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * p.val = p.val; show 0 * 10000 + 1 * p.val = p.val; omega
  | ⟨1, _⟩ => show win0_0.index t (1 : Fin 2) * 128 + 1 * k.val = k.val; show 0 * 128 + 1 * k.val = k.val; omega

/-- The weights' window stages the whole array: its block at the one point, read at `(k, q)`, is the array there. -/
theorem iblk0_1_apply (c : Dev nD) (t : Fin cfg0.N) (k : Fin 128) (q : Fin 32) :
    (iblk0 V c 1 t : Vec Ideal S128x32 .f32) (ix2 k q) = (V c main_arg3 : S128x32.Idx → EReal) (ix2 k q) := by
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * k.val = k.val; show 0 * 128 + 1 * k.val = k.val; omega
  | ⟨1, _⟩ => show win0_1.index t (1 : Fin 2) * 32 + 1 * q.val = q.val; show 0 * 32 + 1 * q.val = q.val; omega

/-- What the one point writes back is its block — the whole array — of the product of the two arrays the region found. -/
theorem flushed0_eq (c : Dev nD) (t : Fin cfg0.N) :
    (dat0 (F := Ideal) V c).flushed 2 t
      = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S10000x128) zeroOffsets0, View.ld_unit_zero (S := S128x32) zeroOffsets0]
  funext j
  rw [View.read_apply]
  refine pay0_eq_mm (iblk0 V c 0 t) (iblk0 V c 1 t) (V c main_arg0) (V c main_arg3)
    (iblk0_0_apply V c t) (iblk0_1_apply V c t) j (((cfg0.win 2).blk t).view.emb j) ?_ ?_
  · show win0_2.index t (0 : Fin 2) * 10000 + 1 * (j 0).val = (j 0).val
    show 0 * 10000 + 1 * (j 0).val = (j 0).val; omega
  · show win0_2.index t (1 : Fin 2) * 32 + 1 * (j 1).val = (j 1).val
    show 0 * 32 + 1 * (j 1).val = (j 1).val; omega

/-- The one point's block is the whole output array: every index is in it. -/
theorem cover0 (i : S10000x32.Idx) :
    ∃ t : Fin cfg0.N, (cfg0.win 2).flush t = true ∧ i ∈ ((cfg0.win 2).blk t).view.set := by
  refine ⟨t0_0, flush0_2 t0_0, ?_⟩
  show i ∈ ((View.whole main_v1).slice (win0_2.rect t0_0)).set
  rw [View.set_slice_whole, Rect.mem_set_unit]
  intro a
  have h0 : (i 0).val < 10000 := (i 0).isLt
  have h1 : (i 1).val < 32 := (i 1).isLt
  match a with
  | ⟨0, _⟩ => show 0 * 10000 ≤ (i 0).val ∧ (i 0).val < 0 * 10000 + 10000; omega
  | ⟨1, _⟩ => show 0 * 32 ≤ (i 1).val ∧ (i 1).val < 0 * 32 + 32; omega

/-- Region 0 leaves in its output array the product of the features with the first layer's weights. -/
theorem final0 (c : Dev nD) : (dat0 (F := Ideal) V c).arrAt 2 cfg0.N = mm (V c main_arg0) (V c main_arg3) :=
  (dat0 (F := Ideal) V c).arrAt_eq_of_cover 2 (mm (V c main_arg0) (V c main_arg3)) (fun t _ => flushed0_eq V c t) cover0

end Cert.KernelIdeal.HandValue

end
-- ==== Proof.KI.Val1.lean ====
/-
  What the second launch leaves in its result: `relu (A ⬝ s₁) ⬝ W`, `A` the adjacency, `s₁` the first launch's product,
  `W` the fused second-layer weights.

  Grid point `t` stages rows `400 t … 400 t + 399` of `A`, the whole of `s₁` and of `W`, and writes back rows
  `400 t … 400 t + 399` of the result: entry `(r, c)` of that block is `∑ k, max (∑ j, A(400 t + r, j) · s₁(j, k)) 0 · W(k, c)`
  — the changes of float format being the identity on the extended reals — which is entry `(400 t + r, c)` of the whole
  product: a row block of a matrix product is the product of the row block. The 25 blocks cover the 10000 rows.
-/
import proofs.«157436_g28449863369143_cont_9to1_491_9_alg».proof.Proof.KI.Dat1
import proofs.«157436_g28449863369143_cont_9to1_491_9_alg».proof.Proof.Spec
import proofs.«157436_g28449863369143_cont_9to1_491_9_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Lib.MatProduct

variable (V : (c : Dev nD) → (b : Ref sig .tc) → Buf (Elt Ideal) ((c : Thread nD τ).loc b))

/-! # Region 1 at the extended reals: `relu (A ⬝ s₁) ⬝ W`, 400 rows of it per grid point

Point `t` of the 25 stages rows `400·t … 400·t + 399` of the adjacency and the whole of `s₁` and `W`, multiplies the
adjacency rows with `s₁` into a zero accumulator, takes the maximum with zero, multiplies with `W` into a zero accumulator and writes
the result back as rows `400·t … 400·t + 399` of the output. A row of a product depends on the same row of the left
factor only, so what each point writes is its rows of one matrix, and the 25 blocks of rows tile the output. -/

/-- Region 1's arithmetic at an entry `(p, q)` of the block: both products go into zero accumulators, the change of
    float format is the identity, so it is `∑ₖ max (∑ⱼ x₀(p, j) · x₁(j, k)) 0 · x₂(k, q)`. -/
theorem pay1_apply (x0 : Vec Ideal S400x10000 .f32) (x1 : Vec Ideal S10000x32 .f32) (x2 : Vec Ideal S32x32 .f32)
    (p : Fin 400) (q : Fin 32) :
    k1_pay1 x0 x1 x2 (ix2 p q)
      = ∑ k : Fin 32, max (∑ j : Fin 10000, x0 (ix2 p j) * x1 (ix2 j k)) 0 * x2 (ix2 k q) := by
  unfold k1_pay1
  refine (Cert.Lib.PlainDot.matmul_plain_zero_apply none _ _ p q).trans ?_
  refine Finset.sum_congr rfl fun k _ => ?_
  rw [shapeCast_self, shapeCast_self]
  refine congrArg (fun s => s * x2 (ix2 k q)) ?_
  rw [maximumf_apply, broadcast_apply]
  refine congrArg₂ max ?_ Ideal.ofBits_zero_f32
  exact Cert.Lib.PlainDot.matmul_plain_zero_apply none _ _ p k

/-- Offsets spelt as a list of zeros are the zero offsets. -/
theorem zeroOffsets1 : (![0, 0] : Fin 2 → Nat) = fun _ => 0 := funext fun a => by fin_cases a <;> rfl

/-- The arithmetic of staged blocks — `x₀` rows `400·n + p` of a matrix `A`, `x₁` and `x₂` all of `S` and `W` — read at
    `j`, is the entry of `relu (A ⬝ S) ⬝ W` in row `400·n + j₀` and `j`'s column. -/
theorem pay1_eq_spec (x0 : Vec Ideal S400x10000 .f32) (x1 : Vec Ideal S10000x32 .f32) (x2 : Vec Ideal S32x32 .f32)
    (A : Mat 10000 10000) (S : Mat 10000 32) (W : Mat 32 32) (n : Nat)
    (h0 : ∀ (p : Fin 400) (j : Fin 10000) (r : Fin 10000), r.val = 400 * n + p.val → x0 (ix2 p j) = A (ix2 r j))
    (h1 : ∀ (j : Fin 10000) (k : Fin 32), x1 (ix2 j k) = S (ix2 j k))
    (h2 : ∀ (k : Fin 32) (q : Fin 32), x2 (ix2 k q) = W (ix2 k q))
    (j : S400x32.Idx) (i : S10000x32.Idx) (hi0 : (i 0).val = 400 * n + (j 0).val) (hi1 : (i 1).val = (j 1).val) :
    k1_pay1 x0 x1 x2 j = mm (relu (mm A S)) W i := by
  obtain ⟨p, q, rfl⟩ : ∃ (p : Fin 400) (q : Fin 32), j = ix2 p q := ⟨j 0, j 1, eq_ix2 j⟩
  obtain ⟨r, q', rfl⟩ : ∃ (r : Fin 10000) (q' : Fin 32), i = ix2 r q' := ⟨i 0, i 1, eq_ix2 i⟩
  have hr : r.val = 400 * n + p.val := hi0
  have hq : q' = q := Fin.ext hi1
  subst hq
  refine (pay1_apply x0 x1 x2 p q').trans ?_
  rw [mm_apply]
  refine Finset.sum_congr rfl fun k _ => ?_
  rw [relu_apply, mm_apply, h2 k q']
  refine congrArg (fun s => s * W (ix2 k q')) ?_
  exact max_sum_mul_congr _ _ _ _ (fun j => h0 p j r hr) (fun j => h1 j k)

/-- The printed index maps over the 25 points: the adjacency's and the output's windows are at block `(t, 0)`, the two
    resident windows at block `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every one of the 25 blocks of rows of the output is some point's. -/
theorem idx_onto1 : ∀ b : Fin 25, ∃ t : Fin cfg1.N, win1_3.index t (0 : Fin 2) = b.val ∧ win1_3.index t (1 : Fin 2) = 0 :=
  (by decide +kernel : ∀ b : Fin 25, ∃ t : Fin grid1.N, win1_3.index t (0 : Fin 2) = b.val ∧ win1_3.index t (1 : Fin 2) = 0)

/-- The adjacency's block at point `t`, read at `(p, j)`, is the adjacency in row `400·t + p`. -/
theorem iblk1_0_apply (c : Dev nD) (t : Fin cfg1.N) (p : Fin 400) (j : Fin 10000) (r : Fin 10000)
    (hr : r.val = 400 * t.val + p.val) :
    (iblk1 V c 0 t : Vec Ideal S400x10000 .f32) (ix2 p j) = (V c main_arg1 : S10000x10000.Idx → EReal) (ix2 r j) := by
  obtain ⟨e0, e1, -⟩ := idx_facts1 t
  unfold iblk1
  rw [View.read_apply]
  show V c main_arg1 _ = V c main_arg1 _
  refine congrArg (V c main_arg1) (funext fun a => Fin.ext ?_)
  match a with
  | ⟨0, _⟩ => show win1_0.index t (0 : Fin 2) * 400 + 1 * p.val = r.val; omega
  | ⟨1, _⟩ => show win1_0.index t (1 : Fin 2) * 10000 + 1 * j.val = j.val; omega

/-- The window on `s₁` stages the whole array at every point. -/
theorem iblk1_1_apply (c : Dev nD) (t : Fin cfg1.N) (j : Fin 10000) (k : Fin 32) :
    (iblk1 V c 1 t : Vec Ideal S10000x32 .f32) (ix2 j k) = (V c main_v1 : S10000x32.Idx → EReal) (ix2 j k) := by
  obtain ⟨-, -, e0, e1, -⟩ := idx_facts1 t
  unfold iblk1
  rw [View.read_apply]
  show V c main_v1 _ = V c main_v1 _
  refine congrArg (V c main_v1) (funext fun a => Fin.ext ?_)
  match a with
  | ⟨0, _⟩ => show win1_1.index t (0 : Fin 2) * 10000 + 1 * j.val = j.val; omega
  | ⟨1, _⟩ => show win1_1.index t (1 : Fin 2) * 32 + 1 * k.val = k.val; omega

/-- The window on the fused weights stages the whole array at every point. -/
theorem iblk1_2_apply (c : Dev nD) (t : Fin cfg1.N) (k : Fin 32) (q : Fin 32) :
    (iblk1 V c 2 t : Vec Ideal S32x32 .f32) (ix2 k q) = (V c main_v0 : S32x32.Idx → EReal) (ix2 k q) := by
  obtain ⟨-, -, -, -, e0, e1, -⟩ := idx_facts1 t
  unfold iblk1
  rw [View.read_apply]
  show V c main_v0 _ = V c main_v0 _
  refine congrArg (V c main_v0) (funext fun a => Fin.ext ?_)
  match a with
  | ⟨0, _⟩ => show win1_2.index t (0 : Fin 2) * 32 + 1 * k.val = k.val; omega
  | ⟨1, _⟩ => show win1_2.index t (1 : Fin 2) * 32 + 1 * q.val = q.val; omega

/-- What point `t` writes back is its block — rows `400·t … 400·t + 399` — of `relu (A ⬝ s₁) ⬝ W` of the arrays the
    region found. -/
theorem flushed1_eq (c : Dev nD) (t : Fin cfg1.N) :
    (dat1 (F := Ideal) V c).flushed 3 t
      = ((cfg1.win 3).blk t).view.read (Elt Ideal) (mm (relu (mm (V c main_arg1) (V c main_v1))) (V c main_v0)) := by
  show (cfg1.win 3).cut (grid1.coords t) ((dat1 V c).after 3 t) = _
  rw [after1_3]
  unfold out1_3
  rw [View.canon_unit_zero zeroOffsets1]
  simp only [View.ld_unit_zero (S := S400x10000) zeroOffsets1, View.ld_unit_zero (S := S10000x32) zeroOffsets1,
    View.ld_unit_zero (S := S32x32) zeroOffsets1]
  obtain ⟨-, -, -, -, -, -, e0, e1⟩ := idx_facts1 t
  funext j
  rw [View.read_apply]
  refine pay1_eq_spec (iblk1 V c 0 t) (iblk1 V c 1 t) (iblk1 V c 2 t) (V c main_arg1) (V c main_v1) (V c main_v0) t.val
    (iblk1_0_apply V c t) (iblk1_1_apply V c t) (iblk1_2_apply V c t) j (((cfg1.win 3).blk t).view.emb j) ?_ ?_
  · show win1_3.index t (0 : Fin 2) * 400 + 1 * (j 0).val = 400 * t.val + (j 0).val
    omega
  · show win1_3.index t (1 : Fin 2) * 32 + 1 * (j 1).val = (j 1).val
    omega

/-- Row `r` of the output is in the block of point `r / 400`: the 25 blocks of 400 rows tile the 10000 rows. -/
theorem cover1 (i : S10000x32.Idx) :
    ∃ t : Fin cfg1.N, (cfg1.win 3).flush t = true ∧ i ∈ ((cfg1.win 3).blk t).view.set := by
  have h0 : (i 0).val < 10000 := (i 0).isLt
  have h1 : (i 1).val < 32 := (i 1).isLt
  obtain ⟨t, q0, q1⟩ := idx_onto1 ⟨(i 0).val / 400, by omega⟩
  have q0' : win1_3.index t (0 : Fin 2) = (i 0).val / 400 := q0
  refine ⟨t, flush1_3 t, ?_⟩
  show i ∈ ((View.whole main_v2).slice (win1_3.rect t)).set
  rw [View.set_slice_whole, Rect.mem_set_unit]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 32 ≤ (i 1).val ∧ (i 1).val < win1_3.index t (1 : Fin 2) * 32 + 32; omega

/-- Region 1 leaves in its output array `relu (A ⬝ s₁) ⬝ W`, `A` the adjacency, `s₁` region 0's result, `W` the fused
    second-layer weights. -/
theorem final1 (c : Dev nD) : (dat1 (F := Ideal) V c).arrAt 3 cfg1.N = mm (relu (mm (V c main_arg1) (V c main_v1))) (V c main_v0) :=
  (dat1 (F := Ideal) V c).arrAt_eq_of_cover 3 (mm (relu (mm (V c main_arg1) (V c main_v1))) (V c main_v0))
    (fun t _ => flushed1_eq V c t) cover1

end Cert.KernelIdeal.HandValue

end
-- ==== Proof.KI.Val2.lean ====
/-
  What the third launch leaves in its result: the reparameterisation read off `A ⬝ s₂`, `s₂` the second launch's product
  (32 columns: the mean head's 16, then the log-deviation head's 16).

  Grid point `t` stages rows `400 t … 400 t + 399` of the adjacency `A` and of the noise `ε`, the whole of `s₂`, and writes
  back the same rows of the result: entry `(r, c)` of that block is `m(r, c) + ε(400 t + r, c) · exp m(r, 16 + c)` with
  `m(r, k) = ∑ j, A(400 t + r, j) · s₂(j, k)` — the two column slices of the block product. The 25 blocks cover the rows.
-/
import proofs.«157436_g28449863369143_cont_9to1_491_9_alg».proof.Proof.KI.Dat2
import proofs.«157436_g28449863369143_cont_9to1_491_9_alg».proof.Proof.Spec
import proofs.«157436_g28449863369143_cont_9to1_491_9_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Lib.MatProduct

variable (V : (c : Dev nD) → (b : Ref sig .tc) → Buf (Elt Ideal) ((c : Thread nD τ).loc b))

/-- The zero offsets of a whole-buffer rectangle. -/
theorem zero_offsets2 : (![0, 0] : Fin 2 → Nat) = fun _ => 0 := funext fun a => by fin_cases a <;> rfl

/-- The exponential of a vector, entry by entry. -/
theorem exp_entry {s : Shape} {φ : FTy} (a : FVec Ideal s φ) (i : s.Idx) : exp a i = Ideal.exp (a i) := rfl

/-- The product of an adjacency row block with the second-layer features at an entry: row `p` against column `q`. -/
theorem adj_dot_apply (x0 : Vec Ideal S400x10000 .f32) (x1 : Vec Ideal S10000x32 .f32) (p : Fin 400) (q : Fin 32) :
    (matmul (F := Ideal) dot_S400x10000_S10000x32_S400x32_1_0_0_1_n_n none (truncf (F := Ideal) .bf16 x0 bitsLt_bf16_f32)
        (truncf (F := Ideal) .bf16 (shapeCast S10000x32 x1 shapeCasts_S10000x32_S10000x32) bitsLt_bf16_f32)
        (constant (F := Ideal) S400x32 .f32 0x00000000#32) : FVec Ideal S400x32 .f32) (ix2 p q)
      = ∑ j : Fin 10000, x0 (ix2 p j) * x1 (ix2 j q) := by
  refine (Cert.Lib.PlainDot.matmul_plain_zero_apply none _ _ p q).trans ?_
  refine Finset.sum_congr rfl fun j _ => ?_
  rw [truncf_apply, truncf_apply, shapeCast_self]

/-- The second pass's arithmetic at an entry: the product's column `c` plus the noise times the exponential of its
    column `16 + c`. -/
theorem passb_apply (x0 : Vec Ideal S400x10000 .f32) (x1 : Vec Ideal S10000x32 .f32) (x2 : Vec Ideal S400x16 .f32)
    (p : Fin 400) (c : Fin 16) (cl cr : Fin 32) (hl : cl.val = c.val) (hr : cr.val = 16 + c.val) :
    k2_pay1 x0 x1 x2 (ix2 p c) = (∑ j : Fin 10000, x0 (ix2 p j) * x1 (ix2 j cl))
      + x2 (ix2 p c) * Ideal.exp (∑ j : Fin 10000, x0 (ix2 p j) * x1 (ix2 j cr)) := by
  unfold k2_pay1
  rw [addf_apply, mulf_apply, exp_entry]
  refine congrArg₂ (· + ·) ?_ (congrArg (fun e => x2 (ix2 p c) * Ideal.exp e) ?_)
  · refine (extractStridedSlice_apply _ _ _ (ix2 p c) (ix2 p cl) fun a => ?_).trans (adj_dot_apply x0 x1 p cl)
    match a with
    | ⟨0, _⟩ => show p.val = 0 + p.val; omega
    | ⟨1, _⟩ => show cl.val = 0 + c.val; omega
  · refine (extractStridedSlice_apply _ _ _ (ix2 p c) (ix2 p cr) fun a => ?_).trans (adj_dot_apply x0 x1 p cr)
    match a with
    | ⟨0, _⟩ => show p.val = 0 + p.val; omega
    | ⟨1, _⟩ => show cr.val = 16 + c.val; omega

/-- The second pass's arithmetic on operands that are row `r` of the adjacency, all of the second-layer features and row
    `r` of the noise: an entry of row `r` of the reparameterisation of their product. -/
theorem passb_reparam_apply (A : Mat 10000 10000) (S : Mat 10000 32) (E : Mat 10000 16)
    (x0 : Vec Ideal S400x10000 .f32) (x1 : Vec Ideal S10000x32 .f32) (x2 : Vec Ideal S400x16 .f32)
    (p : Fin 400) (c : Fin 16) (r : Fin 10000) (h0 : ∀ j : Fin 10000, x0 (ix2 p j) = A (ix2 r j))
    (h1 : ∀ (j : Fin 10000) (q : Fin 32), x1 (ix2 j q) = S (ix2 j q)) (h2 : x2 (ix2 p c) = E (ix2 r c)) :
    k2_pay1 x0 x1 x2 (ix2 p c) = Gvae.reparam (mm A S) E (ix2 r c) := by
  rw [passb_apply x0 x1 x2 p c (Fin.castAdd 16 c) (Fin.natAdd 16 c) rfl rfl, Gvae.reparam_apply, mm_apply, mm_apply, h2]
  exact congrArg₂ (· + ·) (sum_mul_congr _ _ _ _ h0 fun j => h1 j _)
    (congrArg (fun e => E (ix2 r c) * Ideal.exp e) (sum_mul_congr _ _ _ _ h0 fun j => h1 j _))

/-- The printed index maps over the grid: the adjacency's, the noise's and the output's blocks are row block `t`, the
    second-layer features' block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `p` of the adjacency's block at point `t` is row `400 t + p` of the adjacency. -/
theorem adj_block_apply (c : Dev nD) (t : Fin cfg2.N) (p : Fin 400) (j : Fin 10000) (r : Fin 10000)
    (hr : r.val = 400 * t.val + p.val) :
    (iblk2 V c 0 t : Vec Ideal S400x10000 .f32) (ix2 p j) = (V c main_arg1 : Mat 10000 10000) (ix2 r j) := by
  obtain ⟨e0, e1, -, -, -, -, -, -⟩ := idx_facts2 t
  unfold iblk2
  rw [View.read_apply]
  show V c main_arg1 _ = V c main_arg1 _
  congr 1
  funext a
  apply Fin.ext
  match a with
  | ⟨0, _⟩ => show win2_0.index t 0 * 400 + 1 * p.val = r.val; rw [e0, hr]; omega
  | ⟨1, _⟩ => show win2_0.index t 1 * 10000 + 1 * j.val = j.val; rw [e1]; omega

/-- The second-layer features' block at every point is the whole array. -/
theorem feat_block_apply (c : Dev nD) (t : Fin cfg2.N) (j : Fin 10000) (q : Fin 32) :
    (iblk2 V c 1 t : Vec Ideal S10000x32 .f32) (ix2 j q) = (V c main_v2 : Mat 10000 32) (ix2 j q) := by
  obtain ⟨-, -, e2, e3, -, -, -, -⟩ := idx_facts2 t
  unfold iblk2
  rw [View.read_apply]
  show V c main_v2 _ = V c main_v2 _
  congr 1
  funext a
  apply Fin.ext
  match a with
  | ⟨0, _⟩ => show win2_1.index t 0 * 10000 + 1 * j.val = j.val; rw [e2]; omega
  | ⟨1, _⟩ => show win2_1.index t 1 * 32 + 1 * q.val = q.val; rw [e3]; omega

/-- Row `p` of the noise's block at point `t` is row `400 t + p` of the noise. -/
theorem noise_block_apply (c : Dev nD) (t : Fin cfg2.N) (p : Fin 400) (k : Fin 16) (r : Fin 10000)
    (hr : r.val = 400 * t.val + p.val) :
    (iblk2 V c 2 t : Vec Ideal S400x16 .f32) (ix2 p k) = (V c main_arg2 : Mat 10000 16) (ix2 r k) := by
  obtain ⟨-, -, -, -, e4, e5, -, -⟩ := idx_facts2 t
  unfold iblk2
  rw [View.read_apply]
  show V c main_arg2 _ = V c main_arg2 _
  congr 1
  funext a
  apply Fin.ext
  match a with
  | ⟨0, _⟩ => show win2_2.index t 0 * 400 + 1 * p.val = r.val; rw [e4, hr]; omega
  | ⟨1, _⟩ => show win2_2.index t 1 * 16 + 1 * k.val = k.val; rw [e5]; omega

/-- What point `t` writes back is row block `t` of the reparameterisation read off `A ⬝ s₂`. -/
theorem flushed2_eq (c : Dev nD) (t : Fin cfg2.N) :
    (dat2 (F := Ideal) V c).flushed 3 t = ((cfg2.win 3).blk t).view.read (Elt Ideal)
      (Gvae.reparam (mm (V c main_arg1) (V c main_v2)) (V c main_arg2)) := by
  show (cfg2.win 3).cut (grid2.coords t) ((dat2 (F := Ideal) V c).after 3 t) = _
  rw [after2_3]
  unfold out2_3
  rw [View.canon_unit_zero zero_offsets2]
  simp only [View.ld_unit_zero (S := S400x10000) zero_offsets2, View.ld_unit_zero (S := S10000x32) zero_offsets2,
    View.ld_unit_zero (S := S400x16) zero_offsets2]
  funext j
  obtain ⟨p, k, rfl⟩ : ∃ (p : Fin 400) (k : Fin 16), j = ix2 p k := ⟨j 0, j 1, eq_ix2 j⟩
  have hN : cfg2.N = 25 := N_2
  have ht : t.val < 25 := hN ▸ t.isLt
  obtain ⟨-, -, -, -, -, -, e6, e7⟩ := idx_facts2 t
  have hi : ((cfg2.win 3).blk t).view.emb (ix2 p k) = ix2 (⟨400 * t.val + p.val, by omega⟩ : Fin 10000) k := by
    funext a
    apply Fin.ext
    match a with
    | ⟨0, _⟩ => show win2_3.index t 0 * 400 + 1 * p.val = 400 * t.val + p.val; rw [e6]; omega
    | ⟨1, _⟩ => show win2_3.index t 1 * 16 + 1 * k.val = k.val; rw [e7]; omega
  show k2_pay1 (iblk2 V c 0 t) (iblk2 V c 1 t) (iblk2 V c 2 t) (ix2 p k)
    = Gvae.reparam (mm (V c main_arg1) (V c main_v2)) (V c main_arg2) (((cfg2.win 3).blk t).view.emb (ix2 p k))
  rw [hi]
  exact passb_reparam_apply (V c main_arg1) (V c main_v2) (V c main_arg2) _ _ _ p k _
    (fun j => adj_block_apply V c t p j _ rfl) (fun j q => feat_block_apply V c t j q) (noise_block_apply V c t p k _ rfl)

/-- An index of the output array is in point `t`'s block iff each coordinate is in the block's range on its axis. -/
theorem mem_blk2 (t : Fin cfg2.N) (i : S10000x16.Idx) :
    i ∈ ((cfg2.win 3).blk t).view.set ↔ ∀ a : Fin 2, win2_3.index t a * S400x16.size a ≤ (i a).val
      ∧ (i a).val < win2_3.index t a * S400x16.size a + S400x16.size a := by
  show i ∈ ((View.whole main_v3).slice (win2_3.rect t)).set ↔ _
  rw [View.set_slice_whole, Rect.mem_set_unit]
  exact Iff.rfl

/-- Row `r` of the output array is in the block of point `r / 400`: the 25 row blocks tile the array. -/
theorem cover2 (i : S10000x16.Idx) :
    ∃ t : Fin cfg2.N, (cfg2.win 3).flush t = true ∧ i ∈ ((cfg2.win 3).blk t).view.set := by
  have hN : cfg2.N = 25 := N_2
  have hi0 : (i 0).val < 10000 := (i 0).isLt
  have hi1 : (i 1).val < 16 := (i 1).isLt
  obtain ⟨t, ht⟩ : ∃ t : Fin cfg2.N, t.val = (i 0).val / 400 := ⟨⟨(i 0).val / 400, by rw [hN]; omega⟩, rfl⟩
  refine ⟨t, flush2_3 t, ?_⟩
  rw [mem_blk2]
  obtain ⟨-, -, -, -, -, -, e6, e7⟩ := idx_facts2 t
  intro a
  match a with
  | ⟨0, _⟩ =>
    show win2_3.index t 0 * 400 ≤ (i 0).val ∧ (i 0).val < win2_3.index t 0 * 400 + 400
    rw [e6, ht]; omega
  | ⟨1, _⟩ =>
    show win2_3.index t 1 * 16 ≤ (i 1).val ∧ (i 1).val < win2_3.index t 1 * 16 + 16
    rw [e7]; omega

/-- Region 2 leaves in its output array the reparameterisation read off `A ⬝ s₂`. -/
theorem final2 (c : Dev nD) : (dat2 (F := Ideal) V c).arrAt 3 cfg2.N = Gvae.reparam (mm (V c main_arg1) (V c main_v2)) (V c main_arg2) :=
  (dat2 (F := Ideal) V c).arrAt_eq_of_cover 3 (Gvae.reparam (mm (V c main_arg1) (V c main_v2)) (V c main_arg2))
    (fun t _ => flushed2_eq V c t) cover2

end Cert.KernelIdeal.HandValue

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.KI.Val3.lean ====
/-
  What the last launch leaves in its result: the Gram matrix of the rows of the latent code `z`.

  Grid point `t` stages rows `400 t … 400 t + 399` of `z` through one window and the whole of `z` through another, and
  writes back rows `400 t … 400 t + 399` of the result: a matrix-unit product contracting the two operands' LAST axes,
  so entry `(r, q)` of the block is `∑ k, z(400 t + r, k) · z(q, k)`. The 25 blocks cover the 10000 rows.
-/
import proofs.«157436_g28449863369143_cont_9to1_491_9_alg».proof.Proof.KI.Dat3
import proofs.«157436_g28449863369143_cont_9to1_491_9_alg».proof.Proof.Spec
import proofs.«157436_g28449863369143_cont_9to1_491_9_alg».proof.Proof.LibGramDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Lib.MatProduct

variable (V : (c : Dev nD) → (b : Ref sig .tc) → Buf (Elt Ideal) ((c : Thread nD τ).loc b))

/-- The zero offsets of a whole-buffer rectangle. -/
theorem zero_offsets3 : (![0, 0] : Fin 2 → Nat) = fun _ => 0 := funext fun a => by fin_cases a <;> rfl

/-- The decoder's arithmetic at an entry: row `p` of the left operand against row `q` of the right one. -/
theorem decode_apply (x0 : Vec Ideal S400x16 .f32) (x1 : Vec Ideal S10000x16 .f32) (p : Fin 400) (q : Fin 10000) :
    k3_pay1 x0 x1 (ix2 p q) = ∑ k : Fin 16, x0 (ix2 p k) * x1 (ix2 q k) := by
  unfold k3_pay1
  refine (Cert.Lib.GramDot.matmul_transposedRhs_zero_apply none _ _ p q).trans ?_
  refine Finset.sum_congr rfl fun k _ => ?_
  rw [truncf_apply, truncf_apply, shapeCast_self, shapeCast_self]

/-- The printed index maps over the grid: the left operand's and the output's blocks are row block `t`, the right operand's
    block is the whole array. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the left operand's block at point `t` is row `400 t + p` of the latent code. -/
theorem left_block_apply (c : Dev nD) (t : Fin cfg3.N) (p : Fin 400) (k : Fin 16) (r : Fin 10000)
    (hr : r.val = 400 * t.val + p.val) :
    (iblk3 V c 0 t : Vec Ideal S400x16 .f32) (ix2 p k) = (V c main_v3 : Mat 10000 16) (ix2 r k) := by
  obtain ⟨e0, e1, -, -, -, -⟩ := idx_facts3 t
  unfold iblk3
  rw [View.read_apply]
  show V c main_v3 _ = V c main_v3 _
  congr 1
  funext a
  apply Fin.ext
  match a with
  | ⟨0, _⟩ => show win3_0.index t 0 * 400 + 1 * p.val = r.val; rw [e0, hr]; omega
  | ⟨1, _⟩ => show win3_0.index t 1 * 16 + 1 * k.val = k.val; rw [e1]; omega

/-- The right operand's block at every point is the whole latent code. -/
theorem right_block_apply (c : Dev nD) (t : Fin cfg3.N) (q : Fin 10000) (k : Fin 16) :
    (iblk3 V c 1 t : Vec Ideal S10000x16 .f32) (ix2 q k) = (V c main_v3 : Mat 10000 16) (ix2 q k) := by
  obtain ⟨-, -, e2, e3, -, -⟩ := idx_facts3 t
  unfold iblk3
  rw [View.read_apply]
  show V c main_v3 _ = V c main_v3 _
  congr 1
  funext a
  apply Fin.ext
  match a with
  | ⟨0, _⟩ => show win3_1.index t 0 * 10000 + 1 * q.val = q.val; rw [e2]; omega
  | ⟨1, _⟩ => show win3_1.index t 1 * 16 + 1 * k.val = k.val; rw [e3]; omega

/-- The decoder's arithmetic on operands that are rows `r` and all rows of `z`: an entry of row `r` of the Gram matrix. -/
theorem decode_gram_apply (z : Mat 10000 16) (x0 : Vec Ideal S400x16 .f32) (x1 : Vec Ideal S10000x16 .f32)
    (p : Fin 400) (q r : Fin 10000) (h0 : ∀ k : Fin 16, x0 (ix2 p k) = z (ix2 r k))
    (h1 : ∀ k : Fin 16, x1 (ix2 q k) = z (ix2 q k)) :
    k3_pay1 x0 x1 (ix2 p q) = Gvae.gram z (ix2 r q) := by
  rw [decode_apply, Gvae.gram_apply]
  exact sum_mul_congr _ _ _ _ h0 h1

/-- What point `t` writes back is row block `t` of the Gram matrix of the latent code. -/
theorem flushed3_eq (c : Dev nD) (t : Fin cfg3.N) :
    (dat3 (F := Ideal) V c).flushed 2 t = ((cfg3.win 2).blk t).view.read (Elt Ideal) (Gvae.gram (V c main_v3)) := by
  show (cfg3.win 2).cut (grid3.coords t) ((dat3 (F := Ideal) V c).after 2 t) = _
  rw [after3_2]
  unfold out3_2
  rw [View.canon_unit_zero zero_offsets3]
  simp only [View.ld_unit_zero (S := S400x16) zero_offsets3, View.ld_unit_zero (S := S10000x16) zero_offsets3]
  funext j
  obtain ⟨p, q, rfl⟩ : ∃ (p : Fin 400) (q : Fin 10000), j = ix2 p q := ⟨j 0, j 1, eq_ix2 j⟩
  have hN : cfg3.N = 25 := N_3
  have ht : t.val < 25 := hN ▸ t.isLt
  obtain ⟨-, -, -, -, e4, e5⟩ := idx_facts3 t
  have hi : ((cfg3.win 2).blk t).view.emb (ix2 p q) = ix2 (⟨400 * t.val + p.val, by omega⟩ : Fin 10000) q := by
    funext a
    apply Fin.ext
    match a with
    | ⟨0, _⟩ => show win3_2.index t 0 * 400 + 1 * p.val = 400 * t.val + p.val; rw [e4]; omega
    | ⟨1, _⟩ => show win3_2.index t 1 * 10000 + 1 * q.val = q.val; rw [e5]; omega
  show k3_pay1 (iblk3 V c 0 t) (iblk3 V c 1 t) (ix2 p q) = Gvae.gram (V c main_v3) (((cfg3.win 2).blk t).view.emb (ix2 p q))
  rw [hi]
  exact decode_gram_apply (V c main_v3) _ _ p q _ (fun k => left_block_apply V c t p k _ rfl) (fun k => right_block_apply V c t q k)

/-- An index of the output array is in point `t`'s block iff each coordinate is in the block's range on its axis. -/
theorem mem_blk3 (t : Fin cfg3.N) (i : S10000x10000.Idx) :
    i ∈ ((cfg3.win 2).blk t).view.set ↔ ∀ a : Fin 2, win3_2.index t a * S400x10000.size a ≤ (i a).val
      ∧ (i a).val < win3_2.index t a * S400x10000.size a + S400x10000.size a := by
  show i ∈ ((View.whole main_v4).slice (win3_2.rect t)).set ↔ _
  rw [View.set_slice_whole, Rect.mem_set_unit]
  exact Iff.rfl

/-- Row `r` of the output array is in the block of point `r / 400`: the 25 row blocks tile the array. -/
theorem cover3 (i : S10000x10000.Idx) :
    ∃ t : Fin cfg3.N, (cfg3.win 2).flush t = true ∧ i ∈ ((cfg3.win 2).blk t).view.set := by
  have hN : cfg3.N = 25 := N_3
  have hi0 : (i 0).val < 10000 := (i 0).isLt
  have hi1 : (i 1).val < 10000 := (i 1).isLt
  obtain ⟨t, ht⟩ : ∃ t : Fin cfg3.N, t.val = (i 0).val / 400 := ⟨⟨(i 0).val / 400, by rw [hN]; omega⟩, rfl⟩
  refine ⟨t, flush3_2 t, ?_⟩
  rw [mem_blk3]
  obtain ⟨-, -, -, -, e4, e5⟩ := idx_facts3 t
  intro a
  match a with
  | ⟨0, _⟩ =>
    show win3_2.index t 0 * 400 ≤ (i 0).val ∧ (i 0).val < win3_2.index t 0 * 400 + 400
    rw [e4, ht]; omega
  | ⟨1, _⟩ =>
    show win3_2.index t 1 * 10000 ≤ (i 1).val ∧ (i 1).val < win3_2.index t 1 * 10000 + 10000
    rw [e5]; omega

/-- Region 3 leaves in its output array the Gram matrix of the rows of the latent code. -/
theorem final3 (c : Dev nD) : (dat3 (F := Ideal) V c).arrAt 2 cfg3.N = Gvae.gram (V c main_v3) :=
  (dat3 (F := Ideal) V c).arrAt_eq_of_cover 2 (Gvae.gram (V c main_v3)) (fun t _ => flushed3_eq V c t) cover3

end Cert.KernelIdeal.HandValue

end
-- ==== Proof.KI.Chain.lean ====
/-
  The four launches composed. Each launch's result (`Val·.lean`) is a function of the arrays the launch found; the
  arrays it found are the launch arrays and the results of the launches before it (the fold of the buffers' contents
  through the program, `Run.lean`). Composing them: the last launch's result is the decoder applied to the latent code,
  which the third launch computed from the fused product, which is the two heads' products side by side because the
  host laid the two weight matrices side by side.
-/
import proofs.«157436_g28449863369143_cont_9to1_491_9_alg».proof.Proof.KI.Run
import proofs.«157436_g28449863369143_cont_9to1_491_9_alg».proof.Proof.KI.Val0
import proofs.«157436_g28449863369143_cont_9to1_491_9_alg».proof.Proof.KI.Val1
import proofs.«157436_g28449863369143_cont_9to1_491_9_alg».proof.Proof.KI.Val2
import proofs.«157436_g28449863369143_cont_9to1_491_9_alg».proof.Proof.KI.Val3
import proofs.«157436_g28449863369143_cont_9to1_491_9_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Lib.MatProduct

variable (m : (ℓ : Loc nD τ sig) → Buf (Elt Ideal) ℓ) (ρ : Dev nD → PrngReg)

/-! ## The arrays each region finds -/

/-- The host stretch leaves the two heads' weights side by side in the fused weights' buffer. -/
theorem fusedWeights (c : Dev nD) :
    V1 m ρ c main_v0 = concatenate S32x32 1 [⟨S32x16, m ((c : Thread nD τ).loc main_arg4)⟩, ⟨S32x16, m ((c : Thread nD τ).loc main_arg5)⟩] concatenates_S32x16_S32x16_S32x32_d1 := by
  show StableHlo.after hostOps0 (fun b => m (c, b)) (Proc.devRef .tc main_v0) = _
  after_results

/-- The left 16 columns of the fused weights are the mean head's. -/
theorem fused_left (c : Dev nD) (k : Fin 32) (q : Fin 16) :
    (V1 m ρ c main_v0 : Mat 32 (16 + 16)) (ix2 k (Fin.castAdd 16 q)) = (m ((c : Thread nD τ).loc main_arg4) : Mat 32 16) (ix2 k q) := by
  rw [fusedWeights m ρ c]
  exact concatenate_pair_apply_left (t := S32x32) (s₁ := S32x16) (s₂ := S32x16) (1 : Fin 2) _ _ _ (ix2 k (Fin.castAdd 16 q)) rfl (ix2 k q)
    (fun b => by match b with | ⟨0, _⟩ => rfl | ⟨1, _⟩ => rfl)

/-- The right 16 columns are the log-deviation head's. -/
theorem fused_right (c : Dev nD) (k : Fin 32) (q : Fin 16) :
    (V1 m ρ c main_v0 : Mat 32 (16 + 16)) (ix2 k (Fin.natAdd 16 q)) = (m ((c : Thread nD τ).loc main_arg5) : Mat 32 16) (ix2 k q) := by
  rw [fusedWeights m ρ c]
  exact concatenate_pair_apply_right (t := S32x32) (s₁ := S32x16) (s₂ := S32x16) (1 : Fin 2) _ _ _ (ix2 k (Fin.natAdd 16 q)) rfl rfl (ix2 k q)
    (fun b hb => by match b with | ⟨0, _⟩ => rfl | ⟨1, _⟩ => exact absurd rfl hb)
    (by show q.val + 16 = 16 + q.val; omega)

/-- Region 0 finds the features and the first layer's weights as launched. -/
theorem V1_x (c : Dev nD) : V1 m ρ c main_arg0 = m ((c : Thread nD τ).loc main_arg0) := W1_of_ne m ρ c main_arg0 (by decide)
theorem V1_W1 (c : Dev nD) : V1 m ρ c main_arg3 = m ((c : Thread nD τ).loc main_arg3) := W1_of_ne m ρ c main_arg3 (by decide)

/-- Region 1 finds the adjacency as launched, region 0's product, and the fused weights. -/
theorem V2_adj (c : Dev nD) : V2 m ρ c main_arg1 = m ((c : Thread nD τ).loc main_arg1) :=
  (W2_of_ne m ρ c main_arg1 (by decide)).trans (W1_of_ne m ρ c main_arg1 (by decide))
theorem V2_s1 (c : Dev nD) : V2 m ρ c main_v1 = mm (m ((c : Thread nD τ).loc main_arg0)) (m ((c : Thread nD τ).loc main_arg3)) := by
  refine (W2_arr m ρ c 2).trans ?_
  rw [final0, V1_x, V1_W1]
theorem V2_w (c : Dev nD) : V2 m ρ c main_v0 = V1 m ρ c main_v0 := W2_of_ne m ρ c main_v0 (by decide)

/-- Region 2 finds the adjacency and the noise as launched, and region 1's product. -/
theorem V3_adj (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_adj m ρ c)
theorem V3_eps (c : Dev nD) : V3 m ρ c main_arg2 = m ((c : Thread nD τ).loc main_arg2) :=
  (W3_of_ne m ρ c main_arg2 (by decide)).trans ((W2_of_ne m ρ c main_arg2 (by decide)).trans (W1_of_ne m ρ c main_arg2 (by decide)))
theorem V3_s2 (c : Dev nD) : V3 m ρ c main_v2
    = mm (Gvae.hidden (m ((c : Thread nD τ).loc main_arg0)) (m ((c : Thread nD τ).loc main_arg1)) (m ((c : Thread nD τ).loc main_arg3))) (V1 m ρ c main_v0) := by
  refine (W3_arr m ρ c 3).trans ?_
  rw [final1, V2_adj, V2_s1, V2_w]
  rfl

/-- Region 3 finds the latent code region 2 left. -/
theorem V4_z (c : Dev nD) : V4 m ρ c main_v3
    = Gvae.latent (m ((c : Thread nD τ).loc main_arg1))
        (Gvae.hidden (m ((c : Thread nD τ).loc main_arg0)) (m ((c : Thread nD τ).loc main_arg1)) (m ((c : Thread nD τ).loc main_arg3)))
        (m ((c : Thread nD τ).loc main_arg2)) (m ((c : Thread nD τ).loc main_arg4)) (m ((c : Thread nD τ).loc main_arg5)) := by
  refine (W4_arr m ρ c 3).trans ?_
  rw [final2, V3_adj, V3_eps, V3_s2]
  exact Gvae.latentFused_eq _ _ _ _ _ _ (fused_left m ρ c) (fused_right m ρ c)

/-- THE RESULT: what the last region leaves in the result's buffer is the network's output on the launch arrays. -/
theorem result (c : Dev nD) : W5 m ρ c (Proc.devRef .tc main_v4)
    = Gvae.adjHat (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W5_out, final3, V4_z]
  rfl

end Cert.KernelIdeal.HandValue

end
-- ==== Proof.RefValue.lean ====
/-
  The reference of the graph auto-encoder, read entry by entry: its result is the specification's forward pass.

  The reference is fourteen whole-array operations on the host: five matrix products of the plain kind (the left
  operand contracted on its columns, the right on its rows), the maximum with a broadcast zero, an exponential, a
  product and a sum taken entry by entry, and one transposition. On the extended reals a plain product of an
  `M × K` by a `K × N` array is the matrix product `∑ k, A(p, k) · B(k, c)` (`hostDot_eq_mm`), so stage by stage

      %0 = x ⬝ W₁,  %1 = A ⬝ %0,  %2 = relu %1 = h,
      %3 = h ⬝ Wμ,  %4 = A ⬝ %3 = μ,  %5 = h ⬝ Wσ,  %6 = A ⬝ %5 = s,
      %9 = μ + ε · exp s = z,  %10 = zᵀ,  %11 = z ⬝ zᵀ,

  and entry `(p, q)` of the last is `∑ k, z(p, k) · z(q, k)`: the Gram matrix of the rows of `z`. No sum is
  rearranged and nothing has to be finite.
-/
import proofs.«157436_g28449863369143_cont_9to1_491_9_alg».proof.Proof.Gen.ReferenceIdeal.Read
import proofs.«157436_g28449863369143_cont_9to1_491_9_alg».proof.Proof.Spec
import proofs.«157436_g28449863369143_cont_9to1_491_9_alg».proof.Proof.LibPlainDot

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Lib.MatProduct

/-! ## A plain host product is the matrix product -/

/-- On the extended reals a host product of an `M × K` by a `K × N` array whose dimension numbers are the plain
    ones (left operand contracted on its columns, right on its rows, no batch axis) is the matrix product: entry
    `(p, c)` is `∑ k, A(p, k) · B(k, c)`. -/
theorem hostDot_eq_mm {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) :
    Host.dotGeneral d none A B = mm A B := by
  subst hd
  exact ext2 fun p c => Cert.Lib.PlainDot.dotGeneral_plain_apply none .single A B p c

/-- Entry `(p, q)` of the Gram matrix of the rows of `z` is `∑ k, z(p, k) · z(q, k)`. -/
theorem gram_apply (z : Mat 10000 16) (p q : Fin 10000) :
    Gvae.gram z (ix2 p q) = ∑ k : Fin 16, z (ix2 p k) * z (ix2 q k) := rfl

variable (x : FVec Ideal S10000x128 .f32) (adj : FVec Ideal S10000x10000 .f32) (eps : FVec Ideal S10000x16 .f32)
  (W1 : FVec Ideal S128x32 .f32) (Wmu Wsig : FVec Ideal S32x16 .f32)

/-! ## The stages, one at a time -/

/-- The features' projection: `%0 = x ⬝ W₁`. -/
theorem v0_eq : val_main_v0 (F := Ideal) x W1 = mm x W1 := by
  unfold val_main_v0
  exact hostDot_eq_mm _ rfl x W1

/-- The first propagation over the graph: `%1 = A ⬝ (x ⬝ W₁)`. -/
theorem v1_eq : val_main_v1 (F := Ideal) x adj W1 = mm adj (mm x W1) := by
  unfold val_main_v1
  rw [v0_eq]
  exact hostDot_eq_mm _ rfl adj (mm x W1)

/-- The broadcast of the zero constant is `0` at every entry. -/
theorem zero_apply (i : S10000x32.Idx) : val_main_call0_v0 (F := Ideal) i = 0 := by
  rw [val_main_call0_v0_apply, val_main_call0_cst_apply]
  exact Ideal.ofBits_zero_f32

/-- The hidden layer: `%2`, the entrywise maximum of `A ⬝ (x ⬝ W₁)` with zero, is `h = relu (A ⬝ (x ⬝ W₁))`. -/
theorem v2_eq : val_main_v2 (F := Ideal) x adj W1 = Gvae.hidden x adj W1 := by
  funext i
  rw [val_main_v2_apply, v1_eq, zero_apply]
  rfl

/-- The mean head's projection: `%3 = h ⬝ Wμ`. -/
theorem v3_eq : val_main_v3 (F := Ideal) x adj W1 Wmu = mm (Gvae.hidden x adj W1) Wmu := by
  unfold val_main_v3
  rw [v2_eq]
  exact hostDot_eq_mm _ rfl (Gvae.hidden x adj W1) Wmu

/-- The mean: `%4 = A ⬝ (h ⬝ Wμ)`. -/
theorem v4_eq : val_main_v4 (F := Ideal) x adj W1 Wmu = mm adj (mm (Gvae.hidden x adj W1) Wmu) := by
  unfold val_main_v4
  rw [v3_eq]
  exact hostDot_eq_mm _ rfl adj (mm (Gvae.hidden x adj W1) Wmu)

/-- The deviation head's projection: `%5 = h ⬝ Wσ`. -/
theorem v5_eq : val_main_v5 (F := Ideal) x adj W1 Wsig = mm (Gvae.hidden x adj W1) Wsig := by
  unfold val_main_v5
  rw [v2_eq]
  exact hostDot_eq_mm _ rfl (Gvae.hidden x adj W1) Wsig

/-- The log-deviation: `%6 = A ⬝ (h ⬝ Wσ)`. -/
theorem v6_eq : val_main_v6 (F := Ideal) x adj W1 Wsig = mm adj (mm (Gvae.hidden x adj W1) Wsig) := by
  unfold val_main_v6
  rw [v5_eq]
  exact hostDot_eq_mm _ rfl adj (mm (Gvae.hidden x adj W1) Wsig)

/-- The latent code: `%9 = %4 + ε · exp %6`, entry by entry `z = μ + ε · exp s`. -/
theorem v9_eq : val_main_v9 (F := Ideal) x adj eps W1 Wmu Wsig
    = Gvae.latent adj (Gvae.hidden x adj W1) eps Wmu Wsig := by
  funext i
  rw [val_main_v9_apply, val_main_v8_apply, val_main_v7_apply, v4_eq, v6_eq]
  rfl

/-- The decoder: `%11 = %9 ⬝ %10` with `%10` the transpose of `%9`; entry `(p, q)` is
    `∑ k, z(p, k) · zᵀ(k, q) = ∑ k, z(p, k) · z(q, k)`, the Gram matrix of the rows of `z`. -/
theorem v11_eq : val_main_v11 (F := Ideal) x adj eps W1 Wmu Wsig = Gvae.adjHat x adj eps W1 Wmu Wsig := by
  refine ext2 fun p q => ?_
  refine (val_main_v11_apply x adj eps W1 Wmu Wsig (ix2 p q)).trans ?_
  unfold Gvae.adjHat
  rw [gram_apply]
  refine Finset.sum_congr rfl fun k _ => ?_
  have el : lidx_main_v11 (ix2 p q) k = ix2 p k :=
    funext fun a => Fin.ext (by match a with | ⟨0, _⟩ => rfl | ⟨1, _⟩ => rfl)
  have er : idx_main_v10 (ridx_main_v11 (ix2 p q) k) = ix2 q k :=
    funext fun a => Fin.ext (by match a with | ⟨0, _⟩ => rfl | ⟨1, _⟩ => rfl)
  rw [val_main_v10_apply, v9_eq, el, er]

/-! ## The reference's result -/

/-- The term the reference's run leaves in its result array is the specification's forward pass
    `Â = z ⬝ zᵀ`, `z = A ⬝ (h ⬝ Wμ) + ε · exp (A ⬝ (h ⬝ Wσ))`, `h = relu (A ⬝ (x ⬝ W₁))`. -/
theorem result_eq (x : FVec Ideal S10000x128 .f32) (adj : FVec Ideal S10000x10000 .f32) (eps : FVec Ideal S10000x16 .f32)
    (W1 : FVec Ideal S128x32 .f32) (Wmu Wsig : FVec Ideal S32x16 .f32) :
    Host.dotGeneral dot_S10000x16_S16x10000_S10000x10000_1_0_0_1_n_n none (addf (Host.dotGeneral dot_S10000x10000_S10000x16_S10000x16_1_0_0_1_n_n none adj (Host.dotGeneral dot_S10000x32_S32x16_S10000x16_1_0_0_1_n_n none (maximumf (Host.dotGeneral dot_S10000x10000_S10000x32_S10000x32_1_0_0_1_n_n none adj (Host.dotGeneral dot_S10000x128_S128x32_S10000x32_1_0_0_1_n_n none x W1)) (broadcastInDim S10000x32 ![] bcast_S_S10000x32 (constant (F := Ideal) S_ .f32 0x00000000#32))) Wmu)) (mulf eps (Host.exp (Host.dotGeneral dot_S10000x10000_S10000x16_S10000x16_1_0_0_1_n_n none adj (Host.dotGeneral dot_S10000x32_S32x16_S10000x16_1_0_0_1_n_n none (maximumf (Host.dotGeneral dot_S10000x10000_S10000x32_S10000x32_1_0_0_1_n_n none adj (Host.dotGeneral dot_S10000x128_S128x32_S10000x32_1_0_0_1_n_n none x W1)) (broadcastInDim S10000x32 ![] bcast_S_S10000x32 (constant (F := Ideal) S_ .f32 0x00000000#32))) Wsig))))) (transpose S16x10000 [1, 0] (addf (Host.dotGeneral dot_S10000x10000_S10000x16_S10000x16_1_0_0_1_n_n none adj (Host.dotGeneral dot_S10000x32_S32x16_S10000x16_1_0_0_1_n_n none (maximumf (Host.dotGeneral dot_S10000x10000_S10000x32_S10000x32_1_0_0_1_n_n none adj (Host.dotGeneral dot_S10000x128_S128x32_S10000x32_1_0_0_1_n_n none x W1)) (broadcastInDim S10000x32 ![] bcast_S_S10000x32 (constant (F := Ideal) S_ .f32 0x00000000#32))) Wmu)) (mulf eps (Host.exp (Host.dotGeneral dot_S10000x10000_S10000x16_S10000x16_1_0_0_1_n_n none adj (Host.dotGeneral dot_S10000x32_S32x16_S10000x16_1_0_0_1_n_n none (maximumf (Host.dotGeneral dot_S10000x10000_S10000x32_S10000x32_1_0_0_1_n_n none adj (Host.dotGeneral dot_S10000x128_S128x32_S10000x32_1_0_0_1_n_n none x W1)) (broadcastInDim S10000x32 ![] bcast_S_S10000x32 (constant (F := Ideal) S_ .f32 0x00000000#32))) Wsig))))) transposes_S10000x16_S16x10000_1_0)
      = Gvae.adjHat x adj eps W1 Wmu Wsig :=
  (val_main_v11_eq (F := Ideal) x adj eps W1 Wmu Wsig).trans (v11_eq x adj eps W1 Wmu Wsig)

/-- From any memory with zero counters every weakly fair execution of the reference terminates with its result
    array at the specification's forward pass of the argument arrays, and the argument arrays unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v11)
        = Gvae.adjHat (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run _ _ _).mono (fun _ h c => ⟨(h c).1.trans (result_eq _ _ _ _ _ _), (h c).2⟩)
    (Cert.ReferenceIdeal.Value.run (F := Ideal) m' ρ')

end Cert.ReferenceIdeal.RefValue

end
-- ==== Proof.lean ====
/-
  The graph variational auto-encoder kernel against its reference, on the extended reals.

  The kernel computes the forward pass in four launches: `s₁ = x ⬝ W₁`; `s₂ = relu (A ⬝ s₁) ⬝ [Wμ | Wσ]`, a block of 400 rows
  of the adjacency `A` at a time; `z = μ + ε · exp s` with `[μ | s] = A ⬝ s₂`, again by row blocks; and the decoder
  `Â = z ⬝ zᵀ`, a block of 400 rows of `z` against all of `z`. The reference computes `μ = A ⬝ (h ⬝ Wμ)` and
  `s = A ⬝ (h ⬝ Wσ)` apart, `h = relu (A ⬝ (x ⬝ W₁))`. With floats read as extended reals the two agree entry by entry: an
  entry of a matrix product depends on one column of its right factor only, so the left (right) 16 columns of
  `A ⬝ (h ⬝ [Wμ | Wσ])` are `A ⬝ (h ⬝ Wμ)` (`A ⬝ (h ⬝ Wσ)`); changes of float format are the identity; and a row block of a
  product is the product of the row block. No sum is rearranged, so nothing has to be finite: the precondition is not used.

  * `Spec.lean`: the network as functions on matrices of extended reals, and the fused form of the second layer.
  * `K/`, `KI/`: the run of the printed program (word level, and on the extended reals): per launch, the body's run on
    its staging buffers and the pipeline's proof data (`Dat·`, `Body·`), the latent code's one buffer dealt between the two
    windows of the last launch that read it (`Shared3`), and the run of the whole program, the buffers' contents at each
    boundary named (`Run`).
  * `KI/Val·.lean`: what each launch leaves in its result, as one function of the arrays it found; `KI/Chain.lean`: the
    four composed — the program's result is the network's output on the launch arrays.
  * `RefValue.lean`: the reference's result is the same function.
-/
import proofs.«157436_g28449863369143_cont_9to1_491_9_alg».proof.Defs
import proofs.«157436_g28449863369143_cont_9to1_491_9_alg».proof.Proof.Gen.Kernel
import proofs.«157436_g28449863369143_cont_9to1_491_9_alg».proof.Proof.Gen.KernelIdeal
import proofs.«157436_g28449863369143_cont_9to1_491_9_alg».proof.Proof.Gen.ReferenceIdeal
import proofs.«157436_g28449863369143_cont_9to1_491_9_alg».proof.Proof.Gen.Pre_finite_inputs
import proofs.«157436_g28449863369143_cont_9to1_491_9_alg».proof.Proof.K.Run
import proofs.«157436_g28449863369143_cont_9to1_491_9_alg».proof.Proof.KI.Run
import proofs.«157436_g28449863369143_cont_9to1_491_9_alg».proof.Proof.KI.Chain
import proofs.«157436_g28449863369143_cont_9to1_491_9_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end, faults nowhere, and leaves its argument arrays as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m ρ c),
     (h c _ (Cert.Kernel.Hand.mem_uc Cert.Kernel.main_arg1 (by decide))).trans (Cert.Kernel.Hand.W5_main_arg1 m ρ c),
     (h c _ (Cert.Kernel.Hand.mem_uc Cert.Kernel.main_arg2 (by decide))).trans (Cert.Kernel.Hand.W5_main_arg2 m ρ c),
     (h c _ (Cert.Kernel.Hand.mem_uc Cert.Kernel.main_arg3 (by decide))).trans (Cert.Kernel.Hand.W5_main_arg3 m ρ c),
     (h c _ (Cert.Kernel.Hand.mem_uc Cert.Kernel.main_arg4 (by decide))).trans (Cert.Kernel.Hand.W5_main_arg4 m ρ c),
     (h c _ (Cert.Kernel.Hand.mem_uc Cert.Kernel.main_arg5 (by decide))).trans (Cert.Kernel.Hand.W5_main_arg5 m ρ c)⟩)
    (Cert.Kernel.Hand.run_main (F := Bits) m ρ)

/-- The same of the program read on the extended reals. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m ρ c),
     (h c _ (Cert.KernelIdeal.Hand.mem_uc Cert.KernelIdeal.main_arg1 (by decide))).trans (Cert.KernelIdeal.Hand.W5_main_arg1 m ρ c),
     (h c _ (Cert.KernelIdeal.Hand.mem_uc Cert.KernelIdeal.main_arg2 (by decide))).trans (Cert.KernelIdeal.Hand.W5_main_arg2 m ρ c),
     (h c _ (Cert.KernelIdeal.Hand.mem_uc Cert.KernelIdeal.main_arg3 (by decide))).trans (Cert.KernelIdeal.Hand.W5_main_arg3 m ρ c),
     (h c _ (Cert.KernelIdeal.Hand.mem_uc Cert.KernelIdeal.main_arg4 (by decide))).trans (Cert.KernelIdeal.Hand.W5_main_arg4 m ρ c),
     (h c _ (Cert.KernelIdeal.Hand.mem_uc Cert.KernelIdeal.main_arg5 (by decide))).trans (Cert.KernelIdeal.Hand.W5_main_arg5 m ρ c)⟩)
    (Cert.KernelIdeal.Hand.run_main (F := Ideal) m ρ)

/-- The reference runs to the end and leaves its arguments as launched: its run, the result forgotten. -/
theorem frame_ri : Cert.frame_ReferenceIdeal := fun m ρ _ =>
  (θ_run (Cert.ReferenceIdeal.defs (F := Ideal)) _ _).mono (fun _ h c => (h c).2) (Cert.ReferenceIdeal.RefValue.run m ρ)

/-- The idealization rewrote nothing. -/
theorem preserves : Cert.preserves_Kernel_KernelIdeal := trivial

/-- On the extended reals the kernel's result array ends at the network's output on the launch arrays, and so does the
    reference's, on arrays that agree. -/
theorem algebraic : Cert.algebraic_KernelIdeal_ReferenceIdeal := by
  intro m ρ m' ρ' _ hagree
  refine ⟨fun c => Gvae.adjHat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono (fun r h c =>
      ⟨(h c _ (Cert.KernelIdeal.Hand.mem_uc Cert.KernelIdeal.main_v4 (by decide))).trans (Cert.KernelIdeal.HandValue.result m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c)⟩)
      (Cert.KernelIdeal.Hand.run_main (F := Ideal) m ρ)
  · refine (θ_run (Cert.ReferenceIdeal.defs (F := Ideal)) _ _).mono (fun r h c => ⟨?_, (h c).2⟩) (Cert.ReferenceIdeal.RefValue.run m' ρ')
    rw [(h c).1, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
